-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.sign_bit.Statement Cert.KernelIdeal.S2000x1 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v15_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v15_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v51) = v3 c
          ∧ r.2.mem ((c.tc : Thread Cert.ReferenceIdeal.nD Cert.ReferenceIdeal.τ).loc Cert.ReferenceIdeal.main_v90) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x1 : Shape := ⟨2, ![1000000, 1]⟩
abbrev S1000000x20 : Shape := ⟨2, ![1000000, 20]⟩
abbrev S80x2 : Shape := ⟨2, ![80, 2]⟩
abbrev S80x20 : Shape := ⟨2, ![80, 20]⟩
abbrev S80 : Shape := ⟨1, ![80]⟩
abbrev S1x20 : Shape := ⟨2, ![1, 20]⟩
abbrev S1 : Shape := ⟨1, ![1]⟩
abbrev S_ : Shape := ⟨0, ![]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S1000000x20 : S_.BroadcastsInDim S1000000x20 (![] : Fin 0 → Fin S1000000x20.rank)
  reducesTo_S1000000x20_S_d0_1 : S1000000x20.ReducesTo [0, 1] S_
  bcast_S_S80x2 : S_.BroadcastsInDim S80x2 (![] : Fin 0 → Fin S80x2.rank)
  reducesTo_S80x2_S_d0_1 : S80x2.ReducesTo [0, 1] S_
  bcast_S_S80x20 : S_.BroadcastsInDim S80x20 (![] : Fin 0 → Fin S80x20.rank)
  reducesTo_S80x20_S_d0_1 : S80x20.ReducesTo [0, 1] S_
  bcast_S_S80 : S_.BroadcastsInDim S80 (![] : Fin 0 → Fin S80.rank)
  reducesTo_S80_S_d0 : S80.ReducesTo [0] S_
  bcast_S_S1x20 : S_.BroadcastsInDim S1x20 (![] : Fin 0 → Fin S1x20.rank)
  reducesTo_S1x20_S_d0_1 : S1x20.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S80 .f32) (main_arg12 : FVec F S80 .f32) (main_arg13 : FVec F S1x20 .f32) (main_arg14 : FVec F S1 .f32) (main_v48 : IVec S_ 1) (main_v49 : FVec F S80x20 .f32) (main_v50 : FVec F S80x20 .f32) : IVec S_ 1 :=
  let main_v51 : IVec S80x20 1 := cmpf .olt main_v49 main_v50
  let main_c_19 : IVec S_ 1 := constantI S_ 1 1#1
  let main_v52 : IVec S_ 1 := (fun x v => Host.reduce IntOp.andi x v reducesTo_S80x20_S_d0_1 h_S_) main_v51 main_c_19
  let main_v53 : IVec S_ 1 := andi main_v48 main_v52
  let main_v54 : FVec F S80 .f32 := Host.absf main_arg11
  let main_cst_20 : FVec F S_ .f32 := constant S_ .f32 0x7F800000#32
  let main_v55 : FVec F S80 .f32 := broadcastInDim S80 ![] bcast_S_S80 main_cst_20
  let main_v56 : IVec S80 1 := cmpf .olt main_v54 main_v55
  let main_c_21 : IVec S_ 1 := constantI S_ 1 1#1
  let main_v57 : IVec S_ 1 := (fun x v => Host.reduce IntOp.andi x v reducesTo_S80_S_d0 h_S_) main_v56 main_c_21
  let main_v58 : IVec S_ 1 := andi main_v53 main_v57
  let main_v59 : FVec F S80 .f32 := Host.absf main_arg12
  let main_cst_22 : FVec F S_ .f32 := constant S_ .f32 0x7F800000#32
  let main_v60 : FVec F S80 .f32 := broadcastInDim S80 ![] bcast_S_S80 main_cst_22
  let main_v61 : IVec S80 1 := cmpf .olt main_v59 main_v60
  let main_c_23 : IVec S_ 1 := constantI S_ 1 1#1
  let main_v62 : IVec S_ 1 := (fun x v => Host.reduce IntOp.andi x v reducesTo_S80_S_d0 h_S_) main_v61 main_c_23
  let main_v63 : IVec S_ 1 := andi main_v58 main_v62
  let main_v64 : FVec F S1x20 .f32 := Host.absf main_arg13
  let main_cst_24 : FVec F S_ .f32 := constant S_ .f32 0x7F800000#32
  let main_v65 : FVec F S1x20 .f32 := broadcastInDim S1x20 ![] bcast_S_S1x20 main_cst_24
  let main_v66 : IVec S1x20 1 := cmpf .olt main_v64 main_v65
  let main_c_25 : IVec S_ 1 := constantI S_ 1 1#1
  let main_v67 : IVec S_ 1 := (fun x v => Host.reduce IntOp.andi x v reducesTo_S1x20_S_d0_1 h_S_) main_v66 main_c_25
  fn_part4 (F := F) main_arg14 main_v63 main_v67

def fn_part2 {F : FTy → Type} [FloatOps F] (main_arg7 : FVec F S80 .f32) (main_arg8 : FVec F S80 .f32) (main_arg9 : FVec F S80x20 .f32) (main_arg10 : FVec F S80x20 .f32) (main_arg11 : FVec F S80 .f32) (main_arg12 : FVec F S80 .f32) (main_arg13 : FVec F S1x20 .f32) (main_arg14 : FVec F S1 .f32) (main_v33 : IVec S_ 1) : IVec S_ 1 :=
  let main_v34 : FVec F S80 .f32 := Host.absf main_arg7
  let main_cst_12 : FVec F S_ .f32 := constant S_ .f32 0x7F800000#32
  let main_v35 : FVec F S80 .f32 := broadcastInDim S80 ![] bcast_S_S80 main_cst_12
  let main_v36 : IVec S80 1 := cmpf .olt main_v34 main_v35
  let main_c_13 : IVec S_ 1 := constantI S_ 1 1#1
  let main_v37 : IVec S_ 1 := (fun x v => Host.reduce IntOp.andi x v reducesTo_S80_S_d0 h_S_) main_v36 main_c_13
  let main_v38 : IVec S_ 1 := andi main_v33 main_v37
  let main_v39 : FVec F S80 .f32 := Host.absf main_arg8
  let main_cst_14 : FVec F S_ .f32 := constant S_ .f32 0x7F800000#32
  let main_v40 : FVec F S80 .f32 := broadcastInDim S80 ![] bcast_S_S80 main_cst_14
  let main_v41 : IVec S80 1 := cmpf .olt main_v39 main_v40
  let main_c_15 : IVec S_ 1 := constantI S_ 1 1#1
  let main_v42 : IVec S_ 1 := (fun x v => Host.reduce IntOp.andi x v reducesTo_S80_S_d0 h_S_) main_v41 main_c_15
  let main_v43 : IVec S_ 1 := andi main_v38 main_v42
  let main_v44 : FVec F S80x20 .f32 := Host.absf main_arg9
  let main_cst_16 : FVec F S_ .f32 := constant S_ .f32 0x7F800000#32
  let main_v45 : FVec F S80x20 .f32 := broadcastInDim S80x20 ![] bcast_S_S80x20 main_cst_16
  let main_v46 : IVec S80x20 1 := cmpf .olt main_v44 main_v45
  let main_c_17 : IVec S_ 1 := constantI S_ 1 1#1
  let main_v47 : IVec S_ 1 := (fun x v => Host.reduce IntOp.andi x v reducesTo_S80x20_S_d0_1 h_S_) main_v46 main_c_17
  let main_v48 : IVec S_ 1 := andi main_v43 main_v47
  let main_v49 : FVec F S80x20 .f32 := Host.absf main_arg10
  let main_cst_18 : FVec F S_ .f32 := constant S_ .f32 0x7F800000#32
  let main_v50 : FVec F S80x20 .f32 := broadcastInDim S80x20 ![] bcast_S_S80x20 main_cst_18
  fn_part3 (F := F) main_arg11 main_arg12 main_arg13 main_arg14 main_v48 main_v49 main_v50

def fn_part1 {F : FTy → Type} [FloatOps F] (main_arg4 : FVec F S1000000x20 .f32) (main_arg5 : FVec F S80x2 .f32) (main_arg6 : FVec F S80x20 .f32) (main_arg7 : FVec F S80 .f32) (main_arg8 : FVec F S80 .f32) (main_arg9 : FVec F S80x20 .f32) (main_arg10 : FVec F S80x20 .f32) (main_arg11 : FVec F S80 .f32) (main_arg12 : FVec F S80 .f32) (main_arg13 : FVec F S1x20 .f32) (main_arg14 : FVec F S1 .f32) (main_v13 : IVec S_ 1) (main_v16 : IVec S1000000x20 1) : IVec S_ 1 :=
  let main_c_5 : IVec S_ 1 := constantI S_ 1 1#1
  let main_v17 : IVec S_ 1 := (fun x v => Host.reduce IntOp.andi x v reducesTo_S1000000x20_S_d0_1 h_S_) main_v16 main_c_5
  let main_v18 : IVec S_ 1 := andi main_v13 main_v17
  let main_v19 : FVec F S1000000x20 .f32 := Host.absf main_arg4
  let main_cst_6 : FVec F S_ .f32 := constant S_ .f32 0x7F800000#32
  let main_v20 : FVec F S1000000x20 .f32 := broadcastInDim S1000000x20 ![] bcast_S_S1000000x20 main_cst_6
  let main_v21 : IVec S1000000x20 1 := cmpf .olt main_v19 main_v20
  let main_c_7 : IVec S_ 1 := constantI S_ 1 1#1
  let main_v22 : IVec S_ 1 := (fun x v => Host.reduce IntOp.andi x v reducesTo_S1000000x20_S_d0_1 h_S_) main_v21 main_c_7
  let main_v23 : IVec S_ 1 := andi main_v18 main_v22
  let main_v24 : FVec F S80x2 .f32 := Host.absf main_arg5
  let main_cst_8 : FVec F S_ .f32 := constant S_ .f32 0x7F800000#32
  let main_v25 : FVec F S80x2 .f32 := broadcastInDim S80x2 ![] bcast_S_S80x2 main_cst_8
  let main_v26 : IVec S80x2 1 := cmpf .olt main_v24 main_v25
  let main_c_9 : IVec S_ 1 := constantI S_ 1 1#1
  let main_v27 : IVec S_ 1 := (fun x v => Host.reduce IntOp.andi x v reducesTo_S80x2_S_d0_1 h_S_) main_v26 main_c_9
  let main_v28 : IVec S_ 1 := andi main_v23 main_v27
  let main_v29 : FVec F S80x20 .f32 := Host.absf main_arg6
  let main_cst_10 : FVec F S_ .f32 := constant S_ .f32 0x7F800000#32
  let main_v30 : FVec F S80x20 .f32 := broadcastInDim S80x20 ![] bcast_S_S80x20 main_cst_10
  let main_v31 : IVec S80x20 1 := cmpf .olt main_v29 main_v30
  let main_c_11 : IVec S_ 1 := constantI S_ 1 1#1
  let main_v32 : IVec S_ 1 := (fun x v => Host.reduce IntOp.andi x v reducesTo_S80x20_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S1000000x1 .f32) (main_arg1 : FVec F S1000000x20 .f32) (main_arg2 : FVec F S1000000x20 .f32) (main_arg3 : FVec F S1000000x20 .f32) (main_arg4 : FVec F S1000000x20 .f32) (main_arg5 : FVec F S80x2 .f32) (main_arg6 : FVec F S80x20 .f32) (main_arg7 : FVec F S80 .f32) (main_arg8 : FVec F S80 .f32) (main_arg9 : FVec F S80x20 .f32) (main_arg10 : FVec F S80x20 .f32) (main_arg11 : FVec F S80 .f32) (main_arg12 : FVec F S80 .f32) (main_arg13 : FVec F S1x20 .f32) (main_arg14 : FVec F S1 .f32) : IVec S_ 1 :=
  let main_v0 : FVec F S1000000x1 .f32 := Host.absf main_arg0
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_v4 : FVec F S1000000x20 .f32 := Host.absf main_arg1
  let main_cst_0 : FVec F S_ .f32 := constant S_ .f32 0x7F800000#32
  let main_v5 : FVec F S1000000x20 .f32 := broadcastInDim S1000000x20 ![] bcast_S_S1000000x20 main_cst_0
  let main_v6 : IVec S1000000x20 1 := cmpf .olt main_v4 main_v5
  let main_c_1 : IVec S_ 1 := constantI S_ 1 1#1
  let main_v7 : IVec S_ 1 := (fun x v => Host.reduce IntOp.andi x v reducesTo_S1000000x20_S_d0_1 h_S_) main_v6 main_c_1
  let main_v8 : IVec S_ 1 := andi main_v3 main_v7
  let main_v9 : FVec F S1000000x20 .f32 := Host.absf main_arg2
  let main_cst_2 : FVec F S_ .f32 := constant S_ .f32 0x7F800000#32
  let main_v10 : FVec F S1000000x20 .f32 := broadcastInDim S1000000x20 ![] bcast_S_S1000000x20 main_cst_2
  let main_v11 : IVec S1000000x20 1 := cmpf .olt main_v9 main_v10
  let main_c_3 : IVec S_ 1 := constantI S_ 1 1#1
  let main_v12 : IVec S_ 1 := (fun x v => Host.reduce IntOp.andi x v reducesTo_S1000000x20_S_d0_1 h_S_) main_v11 main_c_3
  let main_v13 : IVec S_ 1 := andi main_v8 main_v12
  let main_v14 : FVec F S1000000x20 .f32 := Host.absf main_arg3
  let main_cst_4 : FVec F S_ .f32 := constant S_ .f32 0x7F800000#32
  let main_v15 : FVec F S1000000x20 .f32 := broadcastInDim S1000000x20 ![] bcast_S_S1000000x20 main_cst_4
  let main_v16 : IVec S1000000x20 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S1000000x1 : Shape := ⟨2, ![1000000, 1]⟩
abbrev S1000000x20 : Shape := ⟨2, ![1000000, 20]⟩
abbrev S80x2 : Shape := ⟨2, ![80, 2]⟩
abbrev S80x20 : Shape := ⟨2, ![80, 20]⟩
abbrev S80 : Shape := ⟨1, ![80]⟩
abbrev S1x20 : Shape := ⟨2, ![1, 20]⟩
abbrev S1 : Shape := ⟨1, ![1]⟩
abbrev S2x80 : Shape := ⟨2, ![2, 80]⟩
abbrev S20x80 : Shape := ⟨2, ![20, 80]⟩
abbrev S20x1 : Shape := ⟨2, ![20, 1]⟩
abbrev S1x80 : Shape := ⟨2, ![1, 80]⟩
abbrev S1x1 : Shape := ⟨2, ![1, 1]⟩
abbrev S2000x1 : Shape := ⟨2, ![2000, 1]⟩
abbrev S2000x20 : Shape := ⟨2, ![2000, 20]⟩
abbrev S2000x2 : Shape := ⟨2, ![2000, 2]⟩
abbrev S2000x80 : Shape := ⟨2, ![2000, 80]⟩

abbrev nBuf : Space → Nat
  | .hbm => 35
  | .vmem => 30
  | .smem => 0
  | _ => 0

abbrev bufTy : (tb : Table) → Fin (tcTables nBuf tb) → BufTy
  | .hbm, ⟨0, _⟩ => ⟨S1000000x1, .f32⟩
  | .hbm, ⟨1, _⟩ => ⟨S1000000x20, .f32⟩
  | .hbm, ⟨2, _⟩ => ⟨S1000000x20, .f32⟩
  | .hbm, ⟨3, _⟩ => ⟨S1000000x20, .f32⟩
  | .hbm, ⟨4, _⟩ => ⟨S1000000x20, .f32⟩
  | .hbm, ⟨5, _⟩ => ⟨S80x2, .f32⟩
  | .hbm, ⟨6, _⟩ => ⟨S80x20, .f32⟩
  | .hbm, ⟨7, _⟩ => ⟨S80, .f32⟩
  | .hbm, ⟨8, _⟩ => ⟨S80, .f32⟩
  | .hbm, ⟨9, _⟩ => ⟨S80x20, .f32⟩
  | .hbm, ⟨10, _⟩ => ⟨S80x20, .f32⟩
  | .hbm, ⟨11, _⟩ => ⟨S80, .f32⟩
  | .hbm, ⟨12, _⟩ => ⟨S80, .f32⟩
  | .hbm, ⟨13, _⟩ => ⟨S1x20, .f32⟩
  | .hbm, ⟨14, _⟩ => ⟨S1, .f32⟩
  | .hbm, ⟨15, _⟩ => ⟨S2x80, .f32⟩
  | .hbm, ⟨16, _⟩ => ⟨S2x80, .bf16⟩
  | .hbm, ⟨17, _⟩ => ⟨S20x80, .f32⟩
  | .hbm, ⟨18, _⟩ => ⟨S20x80, .bf16⟩
  | .hbm, ⟨19, _⟩ => ⟨S20x80, .f32⟩
  | .hbm, ⟨20, _⟩ => ⟨S20x80, .bf16⟩
  | .hbm, ⟨21, _⟩ => ⟨S20x80, .f32⟩
  | .hbm, ⟨22, _⟩ => ⟨S20x80, .bf16⟩
  | .hbm, ⟨23, _⟩ => ⟨S20x1, .f32⟩
  | .hbm, ⟨24, _⟩ => ⟨S20x1, .bf16⟩
  | .hbm, ⟨25, _⟩ => ⟨S1x80, .f32⟩
  | .hbm, ⟨26, _⟩ => ⟨S1x80, .f32⟩
  | .hbm, ⟨27, _⟩ => ⟨S1x80, .f32⟩
  | .hbm, ⟨28, _⟩ => ⟨S1x80, .f32⟩
  | .hbm, ⟨29, _⟩ => ⟨S1x1, .f32⟩
  | .hbm, ⟨30, _⟩ => ⟨S1000000x1, .f32⟩
  | .hbm, ⟨31, _⟩ => ⟨S1000000x20, .f32⟩
  | .hbm, ⟨32, _⟩ => ⟨S1000000x20, .f32⟩
  | .hbm, ⟨33, _⟩ => ⟨S1000000x20, .f32⟩
  | .hbm, ⟨34, _⟩ => ⟨S1000000x20, .f32⟩
  | .local _ .vmem, ⟨0, _⟩ => ⟨S2000x1, .f32⟩
  | .local _ .vmem, ⟨1, _⟩ => ⟨S2000x1, .f32⟩
  | .local _ .vmem, ⟨2, _⟩ => ⟨S2000x20, .f32⟩
  | .local _ .vmem, ⟨3, _⟩ => ⟨S2000x20, .f32⟩
  | .local _ .vmem, ⟨4, _⟩ => ⟨S2000x20, .f32⟩
  | .local _ .vmem, ⟨5, _⟩ => ⟨S2000x20, .f32⟩
  | .local _ .vmem, ⟨6, _⟩ => ⟨S2000x20, .f32⟩
  | .local _ .vmem, ⟨7, _⟩ => ⟨S2000x20, .f32⟩
  | .local _ .vmem, ⟨8, _⟩ => ⟨S2000x20, .f32⟩
  | .local _ .vmem, ⟨9, _⟩ => ⟨S2000x20, .f32⟩
  | .local _ .vmem, ⟨10, _⟩ => ⟨S2x80, .bf16⟩
  | .local _ .vmem, ⟨11, _⟩ => ⟨S20x80, .bf16⟩
  | .local _ .vmem, ⟨12, _⟩ => ⟨S1x80, .f32⟩
  | .local _ .vmem, ⟨13, _⟩ => ⟨S1x80, .f32⟩
  | .local _ .vmem, ⟨14, _⟩ => ⟨S20x80, .bf16⟩
  | .local _ .vmem, ⟨15, _⟩ => ⟨S20x80, .bf16⟩
  | .local _ .vmem, ⟨16, _⟩ => ⟨S1x80, .f32⟩
  | .local _ .vmem, ⟨17, _⟩ => ⟨S1x80, .f32⟩
  | .local _ .vmem, ⟨18, _⟩ => ⟨S20x1, .bf16⟩
  | .local _ .vmem, ⟨19, _⟩ => ⟨S1x1, .f32⟩
  | .local _ .vmem, ⟨20, _⟩ => ⟨S2000x1, .f32⟩
  | .local _ .vmem, ⟨21, _⟩ => ⟨S2000x1, .f32⟩
  | .local _ .vmem, ⟨22, _⟩ => ⟨S2000x20, .f32⟩
  | .local _ .vmem, ⟨23, _⟩ => ⟨S2000x20, .f32⟩
  | .local _ .vmem, ⟨24, _⟩ => ⟨S2000x20, .f32⟩
  | .local _ .vmem, ⟨25, _⟩ => ⟨S2000x20, .f32⟩
  | .local _ .vmem, ⟨26, _⟩ => ⟨S2000x20, .f32⟩
  | .local _ .vmem, ⟨27, _⟩ => ⟨S2000x20, .f32⟩
  | .local _ .vmem, ⟨28, _⟩ => ⟨S2000x20, .f32⟩
  | .local _ .vmem, ⟨29, _⟩ => ⟨S2000x20, .f32⟩
  | _, _ => ⟨S1000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v15_2 : Ref sig .tc := ⟨.hbm, 32, rfl⟩
abbrev main_v15_3 : Ref sig .tc := ⟨.hbm, 33, rfl⟩
abbrev main_v15_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [BitOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x20 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x80 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S20x80 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x80 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x80 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S20x80 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S20x80 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x80 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x80 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S20x1 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2000x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2000x20 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2000x20 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2000x20 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2000x20 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  transposes_S80x2_S2x80_1_0 : S80x2.Transposes [1, 0] S2x80
  bitsLt_bf16_f32 : FTy.bits .bf16 < FTy.bits .f32
  transposes_S80x20_S20x80_1_0 : S80x20.Transposes [1, 0] S20x80
  transposes_S1x20_S20x1_1_0 : S1x20.Transposes [1, 0] S20x1
  shapeCasts_S80_S1x80 : S80.ShapeCasts S1x80
  shapeCasts_S1_S1x1 : S1.ShapeCasts S1x1
  inb_S2000x1_S2000x1_0_0 : ∀ a, (![0, 0] : Fin 2 → Nat) a + S2000x1.size a ≤ S2000x1.size a
  h_S2000x1 : 0 < S2000x1.numel
  concatenates_S2000x1_S2000x1_S2000x2_d1 : Shape.Concatenates [S2000x1, S2000x1] S2000x2 1
  inb_S2000x20_S2000x20_0_0 : ∀ a, (![0, 0] : Fin 2 → Nat) a + S2000x20.size a ≤ S2000x20.size a
  h_S2000x20 : 0 < S2000x20.numel
  inb_S2x80_S2x80_0_0 : ∀ a, (![0, 0] : Fin 2 → Nat) a + S2x80.size a ≤ S2x80.size a
  h_S2x80 : 0 < S2x80.numel
  shapeCasts_S2x80_S2x80 : S2x80.ShapeCasts S2x80
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S2000x80 : S1x80.Broadcasts S2000x80
  inb_S20x80_S20x80_0_0 : ∀ a, (![0, 0] : Fin 2 → Nat) a + S20x80.size a ≤ S20x80.size a
  h_S20x80 : 0 < S20x80.numel
  shapeCasts_S20x80_S20x80 : S20x80.ShapeCasts S20x80
  slices_S2000x80_o0_0_S2000x20 : S2000x80.Slices ![0, 0] S2000x20
  slices_S2000x80_o0_20_S2000x20 : S2000x80.Slices ![0, 20] S2000x20
  slices_S2000x80_o0_40_S2000x20 : S2000x80.Slices ![0, 40] S2000x20
  slices_S2000x80_o0_60_S2000x20 : S2000x80.Slices ![0, 60] S2000x20
  inb_S20x1_S20x1_0_0 : ∀ a, (![0, 0] : Fin 2 → Nat) a + S20x1.size a ≤ S20x1.size a
  h_S20x1 : 0 < S20x1.numel
  shapeCasts_S20x1_S20x1 : S20x1.ShapeCasts S20x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  dot_S2000x2_S2x80_S2000x80_1_0_0_1_n_n_wf : DotDims.WF S2000x2 S2x80 S2000x80 [1] [0] [0] [1] [] []
  dot_S2000x20_S20x80_S2000x80_1_0_0_1_n_n_wf : DotDims.WF S2000x20 S20x80 S2000x80 [1] [0] [0] [1] [] []
  dot_S2000x20_S20x1_S2000x1_1_0_0_1_n_n_wf : DotDims.WF S2000x20 S20x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S1000000x1.size a
  hwx0_0 : ∀ i : grid0.Coords, EltTy.bits .f32 = 32 ∨ (Rect.block (s := S1000000x1) S2000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x20.size a ≤ S1000000x20.size a
  hwx0_1 : ∀ i : grid0.Coords, EltTy.bits .f32 = 32 ∨ (Rect.block (s := S1000000x20) S2000x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x20.size a ≤ S1000000x20.size a
  hwx0_2 : ∀ i : grid0.Coords, EltTy.bits .f32 = 32 ∨ (Rect.block (s := S1000000x20) S2000x20.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x20.size a ≤ S1000000x20.size a
  hwx0_3 : ∀ i : grid0.Coords, EltTy.bits .f32 = 32 ∨ (Rect.block (s := S1000000x20) S2000x20.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x20.size a ≤ S1000000x20.size a
  hwx0_4 : ∀ i : grid0.Coords, EltTy.bits .f32 = 32 ∨ (Rect.block (s := S1000000x20) S2000x20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x80.size a ≤ S2x80.size a
  hwx0_5 : ∀ i : grid0.Coords, EltTy.bits .bf16 = 32 ∨ (Rect.block (s := S2x80) S2x80.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S20x80.size a ≤ S20x80.size a
  hwx0_6 : ∀ i : grid0.Coords, EltTy.bits .bf16 = 32 ∨ (Rect.block (s := S20x80) S20x80.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x80.size a ≤ S1x80.size a
  hwx0_7 : ∀ i : grid0.Coords, EltTy.bits .f32 = 32 ∨ (Rect.block (s := S1x80) S1x80.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x80.size a ≤ S1x80.size a
  hwx0_8 : ∀ i : grid0.Coords, EltTy.bits .f32 = 32 ∨ (Rect.block (s := S1x80) S1x80.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S20x80.size a ≤ S20x80.size a
  hwx0_9 : ∀ i : grid0.Coords, EltTy.bits .bf16 = 32 ∨ (Rect.block (s := S20x80) S20x80.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S20x80.size a ≤ S20x80.size a
  hwx0_10 : ∀ i : grid0.Coords, EltTy.bits .bf16 = 32 ∨ (Rect.block (s := S20x80) S20x80.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x80.size a ≤ S1x80.size a
  hwx0_11 : ∀ i : grid0.Coords, EltTy.bits .f32 = 32 ∨ (Rect.block (s := S1x80) S1x80.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x80.size a ≤ S1x80.size a
  hwx0_12 : ∀ i : grid0.Coords, EltTy.bits .f32 = 32 ∨ (Rect.block (s := S1x80) S1x80.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S20x1.size a ≤ S20x1.size a
  hwx0_13 : ∀ i : grid0.Coords, EltTy.bits .bf16 = 32 ∨ (Rect.block (s := S20x1) S20x1.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x1.size a ≤ S1000000x1.size a
  hwx0_15 : ∀ i : grid0.Coords, EltTy.bits .f32 = 32 ∨ (Rect.block (s := S1000000x1) S2000x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2000x20.size a ≤ S1000000x20.size a
  hwx0_16 : ∀ i : grid0.Coords, EltTy.bits .f32 = 32 ∨ (Rect.block (s := S1000000x20) S2000x20.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2000x20.size a ≤ S1000000x20.size a
  hwx0_17 : ∀ i : grid0.Coords, EltTy.bits .f32 = 32 ∨ (Rect.block (s := S1000000x20) S2000x20.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S2000x20.size a ≤ S1000000x20.size a
  hwx0_18 : ∀ i : grid0.Coords, EltTy.bits .f32 = 32 ∨ (Rect.block (s := S1000000x20) S2000x20.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2000x20.size a ≤ S1000000x20.size a
  hwx0_19 : ∀ i : grid0.Coords, EltTy.bits .f32 = 32 ∨ (Rect.block (s := S1000000x20) S2000x20.size (cc0_transform_19 i) (hinb0_19 i)).WholeWords (EltTy.packing .f32)

variable [Facts₀]

def dot_S2000x2_S2x80_S2000x80_1_0_0_1_n_n : DotDims S2000x2 S2x80 S2000x80 where
  lhsContracting := [1]
  rhsContracting := [0]
  lhsNonContracting := [0]
  rhsNonContracting := [1]
  lhsBatch := []
  rhsBatch := []
  wf := dot_S2000x2_S2x80_S2000x80_1_0_0_1_n_n_wf
def dot_S2000x20_S20x80_S2000x80_1_0_0_1_n_n : DotDims S2000x20 S20x80 S2000x80 where
  lhsContracting := [1]
  rhsContracting := [0]
  lhsNonContracting := [0]
  rhsNonContracting := [1]
  lhsBatch := []
  rhsBatch := []
  wf := dot_S2000x20_S20x80_S2000x80_1_0_0_1_n_n_wf
def dot_S2000x20_S20x1_S2000x1_1_0_0_1_n_n : DotDims S2000x20 S20x1 S2000x1 where
  lhsContracting := [1]
  rhsContracting := [0]
  lhsNonContracting := [0]
  rhsNonContracting := [1]
  lhsBatch := []
  rhsBatch := []
  wf := dot_S2000x20_S20x1_S2000x1_1_0_0_1_n_n_wf

abbrev win0_0 : Pipeline.Window sig grid0 :=
  Pipeline.Window.ofSpec (Memref.whole main_arg0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x20.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2000x20.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2000x20.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S2x80.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S20x80.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x80.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x80.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S20x80.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S20x80.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x80.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1x80.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v9) S20x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v14) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15_0) S2000x1.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v15_1) S2000x20.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v15_2) S2000x20.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v15_3) S2000x20.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v15_4) S2000x20.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S1000000x1 : Shape := ⟨2, ![1000000, 1]⟩
abbrev S1000000x20 : Shape := ⟨2, ![1000000, 20]⟩
abbrev S80x2 : Shape := ⟨2, ![80, 2]⟩
abbrev S80x20 : Shape := ⟨2, ![80, 20]⟩
abbrev S80 : Shape := ⟨1, ![80]⟩
abbrev S1x20 : Shape := ⟨2, ![1, 20]⟩
abbrev S1 : Shape := ⟨1, ![1]⟩
abbrev S_ : Shape := ⟨0, ![]⟩
abbrev S1000000x2 : Shape := ⟨2, ![1000000, 2]⟩
abbrev S2x80 : Shape := ⟨2, ![2, 80]⟩
abbrev S1000000x80 : Shape := ⟨2, ![1000000, 80]⟩
abbrev S1x80 : Shape := ⟨2, ![1, 80]⟩
abbrev S20x80 : Shape := ⟨2, ![20, 80]⟩
abbrev S20x1 : Shape := ⟨2, ![20, 1]⟩
abbrev S1x1 : Shape := ⟨2, ![1, 1]⟩

abbrev nBuf : Space → Nat
  | .hbm => 132
  | .vmem => 0
  | .smem => 0
  | _ => 0

abbrev hbmTy0_0 (i : Nat) : BufTy := match i % 128 with
  | 0 => ⟨S1000000x1, .f32⟩
  | 1 => ⟨S1000000x20, .f32⟩
  | 2 => ⟨S1000000x20, .f32⟩
  | 3 => ⟨S1000000x20, .f32⟩
  | 4 => ⟨S1000000x20, .f32⟩
  | 5 => ⟨S80x2, .f32⟩
  | 6 => ⟨S80x20, .f32⟩
  | 7 => ⟨S80, .f32⟩
  | 8 => ⟨S80, .f32⟩
  | 9 => ⟨S80x20, .f32⟩
  | 10 => ⟨S80x20, .f32⟩
  | 11 => ⟨S80, .f32⟩
  | 12 => ⟨S80, .f32⟩
  | 13 => ⟨S1x20, .f32⟩
  | 14 => ⟨S1, .f32⟩
  | 15 => ⟨S1000000x1, .f32⟩
  | 16 => ⟨S_, .f32⟩
  | 17 => ⟨S1000000x1, .f32⟩
  | 18 => ⟨S1000000x1, .i1⟩
  | 19 => ⟨S1000000x1, .f32⟩
  | 20 => ⟨S_, .f32⟩
  | 21 => ⟨S1000000x1, .f32⟩
  | 22 => ⟨S1000000x1, .f32⟩
  | 23 => ⟨S1000000x1, .f32⟩
  | 24 => ⟨S_, .f32⟩
  | 25 => ⟨S1000000x1, .f32⟩
  | 26 => ⟨S1000000x1, .f32⟩
  | 27 => ⟨S_, .f32⟩
  | 28 => ⟨S_, .f32⟩
  | 29 => ⟨S1000000x1, .f32⟩
  | 30 => ⟨S1000000x1, .f32⟩
  | 31 => ⟨S1000000x1, .f32⟩
  | 32 => ⟨S_, .f32⟩
  | 33 => ⟨S1000000x1, .f32⟩
  | 34 => ⟨S1000000x1, .f32⟩
  | 35 => ⟨S1000000x1, .f32⟩
  | 36 => ⟨S1000000x2, .f32⟩
  | 37 => ⟨S2x80, .f32⟩
  | 38 => ⟨S1000000x80, .f32⟩
  | 39 => ⟨S1x80, .f32⟩
  | 40 => ⟨S1000000x80, .f32⟩
  | 41 => ⟨S1000000x80, .f32⟩
  | 42 => ⟨S20x80, .f32⟩
  | 43 => ⟨S1000000x80, .f32⟩
  | 44 => ⟨S1000000x80, .f32⟩
  | 45 => ⟨S1x80, .f32⟩
  | 46 => ⟨S1000000x80, .f32⟩
  | 47 => ⟨S1000000x80, .f32⟩
  | 48 => ⟨S1000000x20, .f32⟩
  | 49 => ⟨S1000000x20, .f32⟩
  | 50 => ⟨S1000000x20, .f32⟩
  | 51 => ⟨S1000000x20, .f32⟩
  | 52 => ⟨S1000000x20, .f32⟩
  | 53 => ⟨S1000000x20, .f32⟩
  | 54 => ⟨S_, .f32⟩
  | 55 => ⟨S1000000x20, .f32⟩
  | 56 => ⟨S1000000x20, .f32⟩
  | 57 => ⟨S_, .f32⟩
  | 58 => ⟨S1000000x20, .f32⟩
  | 59 => ⟨S1000000x20, .f32⟩
  | 60 => ⟨S1000000x20, .f32⟩
  | 61 => ⟨S1000000x20, .f32⟩
  | 62 => ⟨S_, .f32⟩
  | 63 => ⟨S1000000x20, .f32⟩
  | 64 => ⟨S1000000x20, .f32⟩
  | 65 => ⟨S_, .f32⟩
  | 66 => ⟨S1000000x20, .f32⟩
  | 67 => ⟨S1000000x20, .f32⟩
  | 68 => ⟨S1000000x20, .f32⟩
  | 69 => ⟨S1000000x20, .f32⟩
  | 70 => ⟨S1000000x20, .f32⟩
  | 71 => ⟨S_, .f32⟩
  | 72 => ⟨S1000000x20, .f32⟩
  | 73 => ⟨S1000000x20, .f32⟩
  | 74 => ⟨S_, .f32⟩
  | 75 => ⟨S1000000x20, .f32⟩
  | 76 => ⟨S1000000x20, .f32⟩
  | 77 => ⟨S1000000x20, .f32⟩
  | 78 => ⟨S1000000x20, .f32⟩
  | 79 => ⟨S1000000x20, .f32⟩
  | 80 => ⟨S1000000x20, .f32⟩
  | 81 => ⟨S1000000x20, .f32⟩
  | 82 => ⟨S20x80, .f32⟩
  | 83 => ⟨S1000000x80, .f32⟩
  | 84 => ⟨S1x80, .f32⟩
  | 85 => ⟨S1000000x80, .f32⟩
  | 86 => ⟨S1000000x80, .f32⟩
  | 87 => ⟨S20x80, .f32⟩
  | 88 => ⟨S1000000x80, .f32⟩
  | 89 => ⟨S1000000x80, .f32⟩
  | 90 => ⟨S1x80, .f32⟩
  | 91 => ⟨S1000000x80, .f32⟩
  | 92 => ⟨S1000000x80, .f32⟩
  | 93 => ⟨S1000000x20, .f32⟩
  | 94 => ⟨S1000000x20, .f32⟩
  | 95 => ⟨S1000000x20, .f32⟩
  | 96 => ⟨S1000000x20, .f32⟩
  | 97 => ⟨S1000000x20, .f32⟩
  | 98 => ⟨S1000000x20, .f32⟩
  | 99 => ⟨S_, .f32⟩
  | 100 => ⟨S1000000x20, .f32⟩
  | 101 => ⟨S1000000x20, .f32⟩
  | 102 => ⟨S_, .f32⟩
  | 103 => ⟨S1000000x20, .f32⟩
  | 104 => ⟨S1000000x20, .f32⟩
  | 105 => ⟨S1000000x20, .f32⟩
  | 106 => ⟨S1000000x20, .f32⟩
  | 107 => ⟨S_, .f32⟩
  | 108 => ⟨S1000000x20, .f32⟩
  | 109 => ⟨S1000000x20, .f32⟩
  | 110 => ⟨S_, .f32⟩
  | 111 => ⟨S1000000x20, .f32⟩
  | 112 => ⟨S1000000x20, .f32⟩
  | 113 => ⟨S1000000x20, .f32⟩
  | 114 => ⟨S1000000x20, .f32⟩
  | 115 => ⟨S1000000x20, .f32⟩
  | 116 => ⟨S_, .f32⟩
  | 117 => ⟨S1000000x20, .f32⟩
  | 118 => ⟨S1000000x20, .f32⟩
  | 119 => ⟨S_, .f32⟩
  | 120 => ⟨S1000000x20, .f32⟩
  | 121 => ⟨S1000000x20, .f32⟩
  | 122 => ⟨S1000000x20, .f32⟩
  | 123 => ⟨S1000000x20, .f32⟩
  | 124 => ⟨S1000000x20, .f32⟩
  | 125 => ⟨S1000000x20, .f32⟩
  | 126 => ⟨S1000000x20, .f32⟩
  | 127 => ⟨S20x1, .f32⟩
  | _ => ⟨S1000000x1, .f32⟩

abbrev hbmTy0_1 (i : Nat) : BufTy := match i % 128 with
  | 0 => ⟨S1000000x1, .f32⟩
  | 1 => ⟨S1x1, .f32⟩
  | 2 => ⟨S1000000x1, .f32⟩
  | 3 => ⟨S1000000x1, .f32⟩
  | _ => ⟨S1000000x1, .f32⟩

abbrev hbmTy (i : Nat) : BufTy := match i / 128 with
  | 0 => hbmTy0_0 i
  | 1 => hbmTy0_1 i
  | _ => ⟨S1000000x1, .f32⟩

abbrev bufTy : (tb : Table) → Fin (tcTables nBuf tb) → BufTy
  | .hbm, ⟨i, _⟩ => hbmTy i
  | _, _ => ⟨S1000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v9 : Ref sig .tc := ⟨.hbm, 30, rfl⟩
abbrev main_v10 : Ref sig .tc := ⟨.hbm, 31, rfl⟩
abbrev main_cst_3 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_10 : Ref sig .tc := ⟨.hbm, 99, rfl⟩
abbrev main_v71 : Ref sig .tc := ⟨.hbm, 100, rfl⟩
abbrev main_v72 : Ref sig .tc := ⟨.hbm, 101, rfl⟩
abbrev main_cst_11 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_12 : Ref sig .tc := ⟨.hbm, 107, rfl⟩
abbrev main_v77 : Ref sig .tc := ⟨.hbm, 108, rfl⟩
abbrev main_v78 : Ref sig .tc := ⟨.hbm, 109, rfl⟩
abbrev main_cst_13 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_14 : Ref sig .tc := ⟨.hbm, 116, rfl⟩
abbrev main_v84 : Ref sig .tc := ⟨.hbm, 117, rfl⟩
abbrev main_v85 : Ref sig .tc := ⟨.hbm, 118, rfl⟩
abbrev main_cst_15 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩

abbrev nD : Nat := 1
abbrev τ : Topo := Topo.v7x

variable {F : FTy → Type} [FloatOps F]

class Facts₀ : Prop where
  bcast_S_S1000000x1 : S_.BroadcastsInDim S1000000x1 (![] : Fin 0 → Fin S1000000x1.rank)
  concatenates_S1000000x1_S1000000x1_S1000000x2_d1 : Shape.Concatenates [S1000000x1, S1000000x1] S1000000x2 1
  transposes_S80x2_S2x80_1_0 : S80x2.Transposes [1, 0] S2x80
  bcast_S80_S1x80_1 : S80.BroadcastsInDim S1x80 (![1] : Fin 1 → Fin S1x80.rank)
  bcast_S1x80_S1000000x80_0_1 : S1x80.BroadcastsInDim S1000000x80 (![0, 1] : Fin 2 → Fin S1000000x80.rank)
  transposes_S80x20_S20x80_1_0 : S80x20.Transposes [1, 0] S20x80
  slices_S1000000x80_S1000000x20_0_0 : S1000000x80.Slices ![0, 0] S1000000x20
  slices_S1000000x80_S1000000x20_0_20 : S1000000x80.Slices ![0, 20] S1000000x20
  slices_S1000000x80_S1000000x20_0_40 : S1000000x80.Slices ![0, 40] S1000000x20
  slices_S1000000x80_S1000000x20_0_60 : S1000000x80.Slices ![0, 60] S1000000x20
  bcast_S_S1000000x20 : S_.BroadcastsInDim S1000000x20 (![] : Fin 0 → Fin S1000000x20.rank)
  transposes_S1x20_S20x1_1_0 : S1x20.Transposes [1, 0] S20x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  dot_S1000000x2_S2x80_S1000000x80_1_0_0_1_n_n_wf : DotDims.WF S1000000x2 S2x80 S1000000x80 [1] [0] [0] [1] [] []
  dot_S1000000x20_S20x80_S1000000x80_1_0_0_1_n_n_wf : DotDims.WF S1000000x20 S20x80 S1000000x80 [1] [0] [0] [1] [] []
  dot_S1000000x20_S20x1_S1000000x1_1_0_0_1_n_n_wf : DotDims.WF S1000000x20 S20x1 S1000000x1 [1] [0] [0] [1] [] []

variable [Facts₀]

def dot_S1000000x2_S2x80_S1000000x80_1_0_0_1_n_n : DotDims S1000000x2 S2x80 S1000000x80 where
  lhsContracting := [1]
  rhsContracting := [0]
  lhsNonContracting := [0]
  rhsNonContracting := [1]
  lhsBatch := []
  rhsBatch := []
  wf := dot_S1000000x2_S2x80_S1000000x80_1_0_0_1_n_n_wf
def dot_S1000000x20_S20x80_S1000000x80_1_0_0_1_n_n : DotDims S1000000x20 S20x80 S1000000x80 where
  lhsContracting := [1]
  rhsContracting := [0]
  lhsNonContracting := [0]
  rhsNonContracting := [1]
  lhsBatch := []
  rhsBatch := []
  wf := dot_S1000000x20_S20x80_S1000000x80_1_0_0_1_n_n_wf
def dot_S1000000x20_S20x1_S1000000x1_1_0_0_1_n_n : DotDims S1000000x20 S20x1 S1000000x1 where
  lhsContracting := [1]
  rhsContracting := [0]
  lhsNonContracting := [0]
  rhsNonContracting := [1]
  lhsBatch := []
  rhsBatch := []
  wf := dot_S1000000x20_S20x1_S1000000x1_1_0_0_1_n_n_wf

class Facts : Prop extends Facts₀ where

variable [Facts]
-- ==== Proof.Spec.lean ====
/-
  The mathematics both programs compute, stated once, on the extended reals.

  One row of the batch is independent of every other row.  For a row with gradient entry `x`, hidden states
  `h0 h1 : Fin 20 → EReal` and cell states `c0 c1 : Fin 20 → EReal`:

  * the gradient is turned into two features: with `keep := thr ≤ |x|`, the first is `log (|x| + eps) / 10` when
    `keep` and `-1` otherwise, the second is `sign x` when `keep` and `scale * x` otherwise (`feat`);
  * a cell's 80 pre-activations are `gates x Wi bi h Wh bh e = ∑ k, x k * Wi e k + bi e + ∑ k, h k * Wh e k + bh e`,
    the four groups of 20 being the input, forget, candidate and output gates, in that order;
  * the new cell state is `σ(forget) * c + σ(input) * tanh(candidate)` (`cellC`) and the new hidden state
    `σ(output) * tanh(new cell state)` (`cellH`), `σ` the logistic function;
  * the second cell takes the first cell's new hidden state as its input, and the output is the affine form
    `∑ k, h1new k * Wout k + bout`.

  The five results, as whole arrays over the argument arrays, are `out`, `hid0`, `hid1`, `cel0`, `cel1` below.
-/
import Idealize.ShloMosaic.PureOps.Ideal
import Idealize.ShloMosaic.Lib.ValueIdx

noncomputable section

open scoped BigOperators

namespace Cert.Lstm

open Idealize.ShloMosaic Idealize.ShloMosaic.ValueIdx

/-! ## The five scalars the feature map uses, as the patterns both programs spell -/

/-- The threshold `exp (-10)` rounded to single precision. -/
def thr : EReal := Ideal.ofBits .f32 0x383E6BCE#32
/-- The offset `1e-8` rounded to single precision. -/
def eps : EReal := Ideal.ofBits .f32 0x322BCC77#32
/-- The divisor `10`. -/
def ten : EReal := Ideal.ofBits .f32 0x41200000#32
/-- The value `-1` of the first feature below the threshold. -/
def minusOne : EReal := Ideal.ofBits .f32 0xBF800000#32
/-- The factor `exp 10` rounded to single precision. -/
def scale : EReal := Ideal.ofBits .f32 0x46AC14EE#32

/-! ## The feature map of one gradient entry -/

/-- Whether the magnitude `max x (-x)` reaches the threshold, as a bit. -/
def keep (x : EReal) : BitVec 1 := Ideal.cmp .oge (max x (-x)) thr

/-- First feature: `log (|x| + eps) / 10` at or above the threshold, `-1` below it. -/
def logMag (x : EReal) : EReal :=
  Scalar.select (keep x) (Ideal.div (Ideal.log (max x (-x) + eps)) ten) minusOne

/-- Second feature: `sign x` at or above the threshold, `scale * x` below it. -/
def dir (x : EReal) : EReal := Scalar.select (keep x) (Ideal.sign x) (scale * x)

/-- The two features of a gradient entry, as a vector of length 2. -/
def feat (x : EReal) (k : Fin 2) : EReal := if k.val = 0 then logMag x else dir x

/-! ## One cell -/

/-- Column `j` of gate group `0` (input), `1` (forget), `2` (candidate), `3` (output) among the 80 pre-activations. -/
def q0 (j : Fin 20) : Fin 80 := ⟨j.val, by have := j.isLt; omega⟩
def q1 (j : Fin 20) : Fin 80 := ⟨j.val + 20, by have := j.isLt; omega⟩
def q2 (j : Fin 20) : Fin 80 := ⟨j.val + 40, by have := j.isLt; omega⟩
def q3 (j : Fin 20) : Fin 80 := ⟨j.val + 60, by have := j.isLt; omega⟩

/-- The 80 pre-activations of a cell with input `x` (length `K`) and hidden state `h`: input weights and bias, then
    hidden weights and bias, added in this order. -/
def gates {K : Nat} (x : Fin K → EReal) (Wi : Fin 80 → Fin K → EReal) (bi : Fin 80 → EReal)
    (h : Fin 20 → EReal) (Wh : Fin 80 → Fin 20 → EReal) (bh : Fin 80 → EReal) (e : Fin 80) : EReal :=
  (∑ k : Fin K, x k * Wi e k) + bi e + (∑ k : Fin 20, h k * Wh e k) + bh e

/-- The new cell state from the pre-activations `g` and the old cell state `c`. -/
def cellC (g : Fin 80 → EReal) (c : Fin 20 → EReal) (j : Fin 20) : EReal :=
  Ideal.logistic (g (q1 j)) * c j + Ideal.logistic (g (q0 j)) * Ideal.tanh (g (q2 j))

/-- The new hidden state from the pre-activations `g` and the old cell state `c`. -/
def cellH (g : Fin 80 → EReal) (c : Fin 20 → EReal) (j : Fin 20) : EReal :=
  Ideal.logistic (g (q3 j)) * Ideal.tanh (cellC g c j)

/-! ## Arrays read by coordinates -/

/-- Row `r` of an `[n, b]` array as a vector. -/
def row {n b : Nat} (A : (⟨2, ![n, b]⟩ : Shape).Idx → EReal) (r : Fin n) : Fin b → EReal := fun k => A (ix2 r k)
/-- An `[a, b]` array as a function of its two coordinates. -/
def mat {a b : Nat} (W : (⟨2, ![a, b]⟩ : Shape).Idx → EReal) : Fin a → Fin b → EReal := fun e k => W (ix2 e k)
/-- A rank-1 array as a function of its coordinate. -/
def vec {n : Nat} (v : (⟨1, ![n]⟩ : Shape).Idx → EReal) : Fin n → EReal := fun e => v (ix1 e)

/-! ## The whole computation over the fifteen argument arrays -/

/-- The fifteen argument arrays, in the programs' order: the gradient column, the two hidden and two cell states,
    then per cell the input weights, hidden weights, input bias, hidden bias, and the output layer's weights and bias. -/
structure Args where
  inp : (⟨2, ![1000000, 1]⟩ : Shape).Idx → EReal
  h0 : (⟨2, ![1000000, 20]⟩ : Shape).Idx → EReal
  h1 : (⟨2, ![1000000, 20]⟩ : Shape).Idx → EReal
  c0 : (⟨2, ![1000000, 20]⟩ : Shape).Idx → EReal
  c1 : (⟨2, ![1000000, 20]⟩ : Shape).Idx → EReal
  Wih1 : (⟨2, ![80, 2]⟩ : Shape).Idx → EReal
  Whh1 : (⟨2, ![80, 20]⟩ : Shape).Idx → EReal
  bih1 : (⟨1, ![80]⟩ : Shape).Idx → EReal
  bhh1 : (⟨1, ![80]⟩ : Shape).Idx → EReal
  Wih2 : (⟨2, ![80, 20]⟩ : Shape).Idx → EReal
  Whh2 : (⟨2, ![80, 20]⟩ : Shape).Idx → EReal
  bih2 : (⟨1, ![80]⟩ : Shape).Idx → EReal
  bhh2 : (⟨1, ![80]⟩ : Shape).Idx → EReal
  Wout : (⟨2, ![1, 20]⟩ : Shape).Idx → EReal
  bout : (⟨1, ![1]⟩ : Shape).Idx → EReal

variable (A : Args)

/-- First cell's pre-activations on row `r`. -/
def g1 (r : Fin 1000000) : Fin 80 → EReal :=
  gates (feat (A.inp (ix2 r 0))) (mat A.Wih1) (vec A.bih1) (row A.h0 r) (mat A.Whh1) (vec A.bhh1)
/-- First cell's new cell state on row `r`. -/
def c0n (r : Fin 1000000) : Fin 20 → EReal := cellC (g1 A r) (row A.c0 r)
/-- First cell's new hidden state on row `r`. -/
def h0n (r : Fin 1000000) : Fin 20 → EReal := cellH (g1 A r) (row A.c0 r)
/-- Second cell's pre-activations on row `r`: its input is the first cell's new hidden state. -/
def g2 (r : Fin 1000000) : Fin 80 → EReal :=
  gates (h0n A r) (mat A.Wih2) (vec A.bih2) (row A.h1 r) (mat A.Whh2) (vec A.bhh2)
/-- Second cell's new cell state on row `r`. -/
def c1n (r : Fin 1000000) : Fin 20 → EReal := cellC (g2 A r) (row A.c1 r)
/-- Second cell's new hidden state on row `r`. -/
def h1n (r : Fin 1000000) : Fin 20 → EReal := cellH (g2 A r) (row A.c1 r)
/-- The output entry of row `r`. -/
def outv (r : Fin 1000000) : EReal := (∑ k : Fin 20, h1n A r k * A.Wout (ix2 0 k)) + A.bout (ix1 0)

/-- The five result arrays. -/
def out : (⟨2, ![1000000, 1]⟩ : Shape).Idx → EReal := fun i => outv A (i 0)
def hid0 : (⟨2, ![1000000, 20]⟩ : Shape).Idx → EReal := fun i => h0n A (i 0) (i 1)
def hid1 : (⟨2, ![1000000, 20]⟩ : Shape).Idx → EReal := fun i => h1n A (i 0) (i 1)
def cel0 : (⟨2, ![1000000, 20]⟩ : Shape).Idx → EReal := fun i => c0n A (i 0) (i 1)
def cel1 : (⟨2, ![1000000, 20]⟩ : Shape).Idx → EReal := fun i => c1n A (i 0) (i 1)

end Cert.Lstm

end
-- ==== Proof.Literals.lean ====
/-
  The few single-precision patterns whose values the proof needs, read once as extended reals:
  `0`, `1`, `-1`, and the fact that the pattern of the negated threshold denotes the negation of the threshold's
  value (the two words differ in the sign bit only).  Every other constant of the two programs is the same word on
  both sides and is never evaluated.
-/
import Idealize.ShloMosaic.PureOps.Ideal

noncomputable section

namespace Cert.Lstm.Lit

open Idealize.ShloMosaic

/-- The all-zero pattern denotes `0`. -/
theorem zero : Ideal.ofBits .f32 0x00000000#32 = 0 := by
  simp [Ideal.ofBits, Ideal.ieee]

/-- The pattern of `1.0` denotes `1`. -/
theorem one : Ideal.ofBits .f32 0x3F800000#32 = 1 := by
  simp [Ideal.ofBits, Ideal.ieee, -EReal.coe_mul]; norm_num

/-- The pattern of `-1.0` denotes `-1`. -/
theorem neg_one : Ideal.ofBits .f32 0xBF800000#32 = -1 := by
  simp [Ideal.ofBits, Ideal.ieee, -EReal.coe_mul]; norm_num

/-- The threshold's pattern with the sign bit set denotes the negation of the threshold's value. -/
theorem neg_thr : Ideal.ofBits .f32 0xB83E6BCE#32 = -(Ideal.ofBits .f32 0x383E6BCE#32) := by
  simp [Ideal.ofBits, Ideal.ieee, -EReal.coe_mul]

end Cert.Lstm.Lit

end
-- ==== Proof.LibSignClamp.lean ====
/-
  Two facts about the extended reals that a kernel's spelling of `sign` and of a symmetric clamp needs, with no
  finiteness anywhere.

  * `sign_by_cases`: "if the magnitude `max x (-x)` is positive then (-1 if `x < 0`, else 1), otherwise `x` itself"
    — the select tree a vector unit evaluates for the sign function, over the order's comparison bits — is the sign
    function `Ideal.sign` at every extended real, the infinities included (their magnitude is +∞ > 0).
  * `clamp_of_lt`: clamping to `[-t, t]` (`min t (max (-t) x)`) is the identity at every `x` whose magnitude
    `max x (-x)` is below `t`; so a branch that is only selected below a threshold may clamp its operand to the
    threshold's interval without changing its value.
  * `ofBool_decide_eq_one`: a decided proposition, as a one-bit word, is `1` exactly when the proposition holds —
    how the comparison bits of `Ideal.cmp` are read back as order facts.
-/
import Idealize.ShloMosaic.PureOps.Ideal

noncomputable section

namespace Cert.LibSignClamp

open Idealize.ShloMosaic

/-- A decided proposition as a bit is `1` exactly when the proposition holds. -/
theorem ofBool_decide_eq_one (p : Prop) [Decidable p] : (BitVec.ofBool (decide p) = (1 : BitVec 1)) ↔ p := by
  by_cases h : p <;> simp [h]

/-- Clamping to `[-t, t]` does nothing to a point whose magnitude is below `t`. -/
theorem clamp_of_lt (t x : EReal) (h : max x (-x) < t) : min t (max (-t) x) = x := by
  have hx : x < t := lt_of_le_of_lt (le_max_left _ _) h
  have hnx : -x < t := lt_of_le_of_lt (le_max_right _ _) h
  have hlo : -t ≤ x := le_of_lt (EReal.neg_lt_comm.mp hnx)
  rw [max_eq_right hlo, min_eq_right hx.le]

/-- "If the magnitude is positive then -1 below zero and 1 otherwise, else the point itself" is the sign function. -/
theorem sign_by_cases (x : EReal) :
    Scalar.select (Ideal.cmp .ogt (max x (-x)) 0) (Scalar.select (Ideal.cmp .olt x 0) (-1) 1) x = Ideal.sign x := by
  unfold Scalar.select Ideal.cmp
  simp only [ofBool_decide_eq_one]
  induction x using EReal.rec with
  | bot => simp
  | top => simp
  | coe r =>
    rw [Ideal.sign_coe]
    rcases lt_trichotomy r 0 with hr | hr | hr
    · have h1 : (0 : EReal) < max (r : EReal) (-(r : EReal)) := by
        rw [lt_max_iff]; right; rw [← EReal.coe_neg]; exact_mod_cast (neg_pos.mpr hr)
      have h2 : (r : EReal) < 0 := by exact_mod_cast hr
      rw [if_pos h1, if_pos h2, sign_neg hr]; simp
    · subst hr; simp
    · have h1 : (0 : EReal) < max (r : EReal) (-(r : EReal)) := by
        rw [lt_max_iff]; left; exact_mod_cast hr
      have h2 : ¬ (r : EReal) < 0 := by
        intro h; have : r < 0 := by exact_mod_cast h
        exact lt_asymm hr this
      rw [if_pos h1, if_neg h2, sign_pos hr]; simp

end Cert.LibSignClamp

end
-- ==== Proof.BodyFeatures.lean ====
/-
  The kernel's spelling of the second feature agrees with the specification's.

  The kernel computes `sign x` as "if |x| > 0 then (if x < 0 then -1 else 1) else x", and below the threshold it
  multiplies `scale` by `x` clamped to `[-thr, thr]` rather than by `x`.  On the extended reals the first is the sign
  function at every point (the infinities included: |±∞| = ∞ > 0), and the clamp is the identity wherever the
  magnitude is below the threshold: `max x (-x) < thr` gives `-thr < x < thr`.  Neither fact needs `x` to be finite.
-/
import proofs.«152592_j76364518523026_2_alg».proof.Proof.Spec
import proofs.«152592_j76364518523026_2_alg».proof.Proof.Literals
import proofs.«152592_j76364518523026_2_alg».proof.Proof.LibSignClamp

noncomputable section

namespace Cert.Lstm

open Idealize.ShloMosaic Idealize.ShloMosaic.ValueIdx Cert.LibSignClamp

/-- The kernel's second feature — the sign by cases at or above the threshold, `scale` times the clamped point
    below it, with the constants as the patterns the kernel spells — is the specification's `dir`. -/
theorem dir_kernel (x : EReal) :
    Scalar.select (keep x)
      (Scalar.select (Ideal.cmp .ogt (max x (-x)) (Ideal.ofBits .f32 0x00000000#32))
        (Scalar.select (Ideal.cmp .olt x (Ideal.ofBits .f32 0x00000000#32)) (Ideal.ofBits .f32 0xBF800000#32)
          (Ideal.ofBits .f32 0x3F800000#32)) x)
      (scale * min (Ideal.ofBits .f32 0x383E6BCE#32) (max (Ideal.ofBits .f32 0xB83E6BCE#32) x)) = dir x := by
  rw [Lit.zero, Lit.one, Lit.neg_one, Lit.neg_thr, sign_by_cases]
  unfold dir Scalar.select
  by_cases hk : keep x = 1
  · rw [if_pos hk, if_pos hk]
  · rw [if_neg hk, if_neg hk]
    have hlt : max x (-x) < thr := by
      unfold keep Ideal.cmp at hk
      rw [ofBool_decide_eq_one] at hk
      exact not_le.mp hk
    show scale * min thr (max (-thr) x) = scale * x
    rw [clamp_of_lt thr x hlt]

end Cert.Lstm

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibRowReads.lean ====
/-
  Three reads of a dense layer's vector operations at one entry, on the extended reals, for any extents.

  * `bias_row_apply`: a `[1, b]` bias row, recast to its own shape and spread over `a` rows, reads at `(r, e)` its one
    row at `e`.
  * `product_apply`: a plain `[M, K] × [K, N]` matrix product into the zero accumulator whose right operand is a weight
    block recast to its own shape reads at `(r, e)` the sum `∑ k, X[r, k] · W[k, e]` (any dimension record equal to
    the plain one, any operand formats: a change of float format is the identity here).
  * `two_columns_apply`: two `[a, 1]` columns set side by side into `[a, 2]` read at `(r, k)` the first column's row `r`
    for `k = 0` and the second's for `k = 1`.
  Built on this directory's `matmul_plain_zero_apply` (LibPlainMatmul.lean).
-/
import proofs.«152592_j76364518523026_2_alg».proof.Proof.LibPlainMatmul
import Idealize.ShloMosaic.Lib.Pipeline.Value
import Idealize.ShloMosaic.Lib.ValueLayout

noncomputable section

open scoped BigOperators

namespace Cert.LibRowReads

open Idealize.ShloMosaic Idealize.ShloMosaic.ValueIdx

/-- A `[1, b]` bias row, recast to its own shape and spread over `a` rows, reads its one row. -/
theorem bias_row_apply {a b : ℕ} (v : (⟨2, ![1, b]⟩ : Shape).Idx → EReal) (h1 : (⟨2, ![1, b]⟩ : Shape).ShapeCasts ⟨2, ![1, b]⟩)
    (h2 : (⟨2, ![1, b]⟩ : Shape).Broadcasts ⟨2, ![a, b]⟩) (r : Fin a) (e : Fin b) :
    broadcastTo ⟨2, ![a, b]⟩ (shapeCast ⟨2, ![1, b]⟩ v h1) h2 (ix2 r e) = v (ix2 (0 : Fin 1) e) :=
  (broadcastTo_1b_ab_apply _ h2 r e).trans (congrFun (shapeCast_self v h1) _)

/-- A plain product of an `[M, K]` block with a `[K, N]` weight block (recast to its own shape) into the zero
    accumulator: entry `(r, e)` is `∑ k, X[r, k] · W[k, e]`. -/
theorem product_apply {M K N : ℕ} {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (h : (⟨2, ![K, N]⟩ : Shape).ShapeCasts ⟨2, ![K, N]⟩) (r : Fin M) (e : Fin N) :
    FloatOps.matmul d none X (shapeCast ⟨2, ![K, N]⟩ W h) (constant ⟨2, ![M, N]⟩ .f32 0x00000000#32) (ix2 r e)
      = ∑ k : Fin K, X (ix2 r k) * W (ix2 k e) := by
  rw [shapeCast_self W h]
  exact matmul_plain_zero_apply d hd none X W r e

/-- Two `[a, 1]` columns set side by side: entry `(r, k)` of the `[a, 2]` result is the first column's entry of row `r`
    for `k = 0` and the second's for `k = 1`. -/
theorem two_columns_apply {a : ℕ} (X Y : (⟨2, ![a, 1]⟩ : Shape).Idx → EReal)
    (h : Shape.Concatenates [(⟨2, ![a, 1]⟩ : Shape), (⟨2, ![a, 1]⟩ : Shape)] (⟨2, ![a, 2]⟩ : Shape) (1 : Fin 2)) (r : Fin a) (k : Fin 2) :
    concatenate (⟨2, ![a, 2]⟩ : Shape) (1 : Fin 2) [⟨(⟨2, ![a, 1]⟩ : Shape), X⟩, ⟨(⟨2, ![a, 1]⟩ : Shape), Y⟩] h (ix2 r k)
      = if k.val = 0 then X (ix2 r (0 : Fin 1)) else Y (ix2 r (0 : Fin 1)) := by
  match k with
  | ⟨0, _⟩ =>
    rw [if_pos rfl]
    exact concatenate_pair_apply_left (1 : Fin 2) X Y h (ix2 r (⟨0, by decide⟩ : Fin 2)) rfl (ix2 r (0 : Fin 1))
      (fun b => match b with | ⟨0, _⟩ => rfl | ⟨1, _⟩ => rfl)
  | ⟨1, _⟩ =>
    rw [if_neg Nat.one_ne_zero]
    exact concatenate_pair_apply_right (1 : Fin 2) X Y h (ix2 r (⟨1, by decide⟩ : Fin 2)) rfl rfl (ix2 r (0 : Fin 1))
      (fun b hb => match b, hb with | ⟨0, _⟩, _ => rfl | ⟨1, _⟩, hb => absurd rfl hb) rfl

end Cert.LibRowReads

end
-- ==== Proof.BodyGates.lean ====
/-
  The kernel body's values at one entry of a block, on the extended reals.

  A block has 2000 rows.  Row `r` of every value the body computes depends only on row `r` of the five per-row
  blocks and on the (whole) weight blocks: the feature pair of the gradient entry, then for each cell the 80
  pre-activations  x·Wx + bx + h·Wh + bh  (two plain matrix products into zero accumulators, two bias rows spread over
  the rows), the four groups of 20 columns cut out of their logistic and tanh, the new cell and hidden states, and last
  the affine output.  A change of float format is the identity here, a bias row `[1, 80]` spread over 2000 rows reads
  its one row, and a product's entry `(r, e)` is the sum over the contracted coordinate.
-/
import proofs.«152592_j76364518523026_2_alg».proof.Proof.Gen.KernelIdeal.Skeleton
import proofs.«152592_j76364518523026_2_alg».proof.Proof.BodyFeatures
import proofs.«152592_j76364518523026_2_alg».proof.Proof.LibRowReads
import Idealize.ShloMosaic.Lib.Pipeline.Value
import Idealize.ShloMosaic.Lib.ValueLayout

noncomputable section

open scoped BigOperators

namespace Cert.Lstm.Body

open Cert.KernelIdeal Cert.KernelIdeal.Gen Cert.Lstm Cert.LibRowReads Idealize.ShloMosaic Idealize.ShloMosaic.ValueIdx

/-! ## A read used throughout -/

/-- Columns `o .. o + 19` of an `[a, 80]` block: entry `(r, j)` of the cut is entry `(r, k)` with `k = o + j`. -/
theorem cut_apply {a : ℕ} (o : ℕ) (X : (⟨2, ![a, 80]⟩ : Shape).Idx → EReal)
    (h : (⟨2, ![a, 80]⟩ : Shape).Slices ![0, o] ⟨2, ![a, 20]⟩) (r : Fin a) (j : Fin 20) (k : Fin 80) (hk : k.val = o + j.val) :
    extractStridedSlice ⟨2, ![a, 20]⟩ ![0, o] X h (ix2 r j) = X (ix2 r k) :=
  slice2_axis1_apply o X h r j k hk

/-! ## The feature pair and the first product -/

/-- The first product's entry `(r, e)`: the two features of the row's gradient entry against column `e` of the
    `[2, 80]` weight block. -/
theorem pay5_apply (v0 : Vec Ideal S2000x1 .f32) (v35 : Vec Ideal S2x80 .bf16) (r : Fin 2000) (e : Fin 80) :
    k0_pay5 (F := Ideal) v0 v35 (ix2 r e) = ∑ k : Fin 2, feat (v0 (ix2 r (0 : Fin 1))) k * v35 (ix2 k e) := by
  unfold k0_pay5
  refine (product_apply _ rfl _ v35 _ r e).trans ?_
  refine Finset.sum_congr rfl fun k _ => ?_
  refine congrArg (· * v35 (ix2 k e)) ?_
  refine (truncf_apply (φ := .f32) (ψ := .bf16) _ bitsLt_bf16_f32 (ix2 r k)).trans ?_
  refine (two_columns_apply _ _ concatenates_S2000x1_S2000x1_S2000x2_d1 r k).trans ?_
  unfold feat
  by_cases hk : k.val = 0
  · rw [if_pos hk, if_pos hk]; rfl
  · rw [if_neg hk, if_neg hk]; exact dir_kernel (v0 (ix2 r (0 : Fin 1)))

/-! ## The pre-activations of the two cells -/

/-- First cell: entry `(r, e)` of  P + bx + h·Wh + bh,  `P` the first product. -/
theorem pay6_apply (v34 : FVec Ideal S2000x20 .bf16) (v37 : FVec Ideal S2000x80 .f32) (v38 : Vec Ideal S1x80 .f32)
    (v42 : Vec Ideal S20x80 .bf16) (v46 : Vec Ideal S1x80 .f32) (r : Fin 2000) (e : Fin 80) :
    k0_pay6 (F := Ideal) v34 v37 v38 v42 v46 (ix2 r e)
      = v37 (ix2 r e) + v38 (ix2 (0 : Fin 1) e) + (∑ k : Fin 20, v34 (ix2 r k) * v42 (ix2 k e)) + v46 (ix2 (0 : Fin 1) e) := by
  unfold k0_pay6
  refine congrArg₂ (· + ·) (congrArg₂ (· + ·) (congrArg₂ (· + ·) rfl ?_) ?_) ?_
  · exact bias_row_apply v38 _ _ r e
  · exact product_apply _ rfl v34 v42 _ r e
  · exact bias_row_apply v46 _ _ r e

/-- Second cell: entry `(r, e)` of  x·Wx + bx + h·Wh + bh,  its input `x` the first cell's new hidden state. -/
theorem pay10_apply (v31 v32 : Vec Ideal S2000x20 .f32) (v34 : FVec Ideal S2000x20 .bf16) (v37 : FVec Ideal S2000x80 .f32)
    (v38 : Vec Ideal S1x80 .f32) (v42 : Vec Ideal S20x80 .bf16) (v46 : Vec Ideal S1x80 .f32) (v63 : Vec Ideal S20x80 .bf16)
    (v66 : Vec Ideal S1x80 .f32) (v70 : Vec Ideal S20x80 .bf16) (v74 : Vec Ideal S1x80 .f32) (r : Fin 2000) (e : Fin 80) :
    k0_pay10 (F := Ideal) v31 v32 v34 v37 v38 v42 v46 v63 v66 v70 v74 (ix2 r e)
      = (∑ k : Fin 20, k0_pay9 (F := Ideal) v31 v34 v37 v38 v42 v46 (ix2 r k) * v63 (ix2 k e)) + v66 (ix2 (0 : Fin 1) e)
          + (∑ k : Fin 20, v32 (ix2 r k) * v70 (ix2 k e)) + v74 (ix2 (0 : Fin 1) e) := by
  unfold k0_pay10
  refine congrArg₂ (· + ·) (congrArg₂ (· + ·) (congrArg₂ (· + ·) ?_ ?_) ?_) ?_
  · exact product_apply _ rfl (truncf .bf16 (k0_pay9 (F := Ideal) v31 v34 v37 v38 v42 v46) bitsLt_bf16_f32) v63 _ r e
  · exact bias_row_apply v66 _ _ r e
  · exact product_apply _ rfl (truncf .bf16 v32 bitsLt_bf16_f32) v70 _ r e
  · exact bias_row_apply v74 _ _ r e

/-- The output: entry `(r, 0)` of  h·Wo + bo,  `h` the second cell's new hidden state, `Wo` a `[20, 1]` block. -/
theorem pay3_apply (v33 : Vec Ideal S2000x20 .f32) (v78 v79 : FVec Ideal S2000x80 .f32) (v80 v81 : FVec Ideal S2000x20 .f32)
    (v90 : Vec Ideal S20x1 .bf16) (v93 : Vec Ideal S1x1 .f32) (r : Fin 2000) (z : Fin 1) :
    k0_pay3 (F := Ideal) v33 v78 v79 v80 v81 v90 v93 (ix2 r z)
      = (∑ k : Fin 20, k0_pay2 (F := Ideal) v33 v78 v79 v80 v81 (ix2 r k) * v90 (ix2 k z)) + v93 (ix2 (0 : Fin 1) z) := by
  unfold k0_pay3
  refine congrArg₂ (· + ·) ?_ ?_
  · exact product_apply _ rfl (truncf .bf16 (k0_pay2 (F := Ideal) v33 v78 v79 v80 v81) bitsLt_bf16_f32) v90 _ r z
  · exact bias_row_apply v93 _ _ r z

/-! ## The cells' new states -/

/-- First cell's new cell state at `(r, j)`, from the pre-activations of row `r`. -/
theorem pay8_apply (v31 : Vec Ideal S2000x20 .f32) (v34 : FVec Ideal S2000x20 .bf16) (v37 : FVec Ideal S2000x80 .f32)
    (v38 : Vec Ideal S1x80 .f32) (v42 : Vec Ideal S20x80 .bf16) (v46 : Vec Ideal S1x80 .f32) (r : Fin 2000) (j : Fin 20) :
    k0_pay8 (F := Ideal) v31 v34 v37 v38 v42 v46 (ix2 r j)
      = cellC (fun e => k0_pay6 (F := Ideal) v34 v37 v38 v42 v46 (ix2 r e)) (fun j => v31 (ix2 r j)) j := by
  unfold k0_pay8 k0_pay7 cellC
  dsimp only
  refine congrArg₂ (· + ·) (congrArg₂ (· * ·) ?_ rfl) (congrArg₂ (· * ·) ?_ ?_)
  · exact cut_apply 20 _ _ r j (q1 j) (Nat.add_comm _ _)
  · exact cut_apply 0 _ _ r j (q0 j) (Nat.zero_add _).symm
  · exact cut_apply 40 _ _ r j (q2 j) (Nat.add_comm _ _)

/-- First cell's new hidden state at `(r, j)`. -/
theorem pay9_apply (v31 : Vec Ideal S2000x20 .f32) (v34 : FVec Ideal S2000x20 .bf16) (v37 : FVec Ideal S2000x80 .f32)
    (v38 : Vec Ideal S1x80 .f32) (v42 : Vec Ideal S20x80 .bf16) (v46 : Vec Ideal S1x80 .f32) (r : Fin 2000) (j : Fin 20) :
    k0_pay9 (F := Ideal) v31 v34 v37 v38 v42 v46 (ix2 r j)
      = cellH (fun e => k0_pay6 (F := Ideal) v34 v37 v38 v42 v46 (ix2 r e)) (fun j => v31 (ix2 r j)) j := by
  unfold k0_pay9 k0_pay7 cellH
  dsimp only
  refine congrArg₂ (· * ·) ?_ (congrArg Ideal.tanh (pay8_apply v31 v34 v37 v38 v42 v46 r j))
  exact cut_apply 60 _ _ r j (q3 j) (Nat.add_comm _ _)

/-- Second cell's new cell state at `(r, j)`, from its pre-activations of row `r`. -/
theorem pay1_apply (v33 : Vec Ideal S2000x20 .f32) (v31 v32 : Vec Ideal S2000x20 .f32) (v34 : FVec Ideal S2000x20 .bf16) (v37 : FVec Ideal S2000x80 .f32)
    (v38 : Vec Ideal S1x80 .f32) (v42 : Vec Ideal S20x80 .bf16) (v46 : Vec Ideal S1x80 .f32) (v63 : Vec Ideal S20x80 .bf16)
    (v66 : Vec Ideal S1x80 .f32) (v70 : Vec Ideal S20x80 .bf16) (v74 : Vec Ideal S1x80 .f32) (r : Fin 2000) (j : Fin 20) :
    k0_pay1 (F := Ideal) v33 (k0_pay12 v31 v32 v34 v37 v38 v42 v46 v63 v66 v70 v74) (k0_pay13 v31 v32 v34 v37 v38 v42 v46 v63 v66 v70 v74) (k0_pay14 v31 v32 v34 v37 v38 v42 v46 v63 v66 v70 v74) (ix2 r j)
      = cellC (fun e => k0_pay10 (F := Ideal) v31 v32 v34 v37 v38 v42 v46 v63 v66 v70 v74 (ix2 r e)) (fun j => v33 (ix2 r j)) j := by
  unfold k0_pay1 k0_pay12 k0_pay13 k0_pay14 k0_pay11 cellC
  dsimp only
  refine congrArg₂ (· + ·) (congrArg₂ (· * ·) ?_ rfl) (congrArg₂ (· * ·) ?_ ?_)
  · exact cut_apply 20 _ _ r j (q1 j) (Nat.add_comm _ _)
  · exact cut_apply 0 _ _ r j (q0 j) (Nat.zero_add _).symm
  · exact cut_apply 40 _ _ r j (q2 j) (Nat.add_comm _ _)

/-- Second cell's new hidden state at `(r, j)`. -/
theorem pay2_apply (v33 : Vec Ideal S2000x20 .f32) (v31 v32 : Vec Ideal S2000x20 .f32) (v34 : FVec Ideal S2000x20 .bf16) (v37 : FVec Ideal S2000x80 .f32)
    (v38 : Vec Ideal S1x80 .f32) (v42 : Vec Ideal S20x80 .bf16) (v46 : Vec Ideal S1x80 .f32) (v63 : Vec Ideal S20x80 .bf16)
    (v66 : Vec Ideal S1x80 .f32) (v70 : Vec Ideal S20x80 .bf16) (v74 : Vec Ideal S1x80 .f32) (r : Fin 2000) (j : Fin 20) :
    k0_pay2 (F := Ideal) v33 (k0_pay11 v31 v32 v34 v37 v38 v42 v46 v63 v66 v70 v74) (k0_pay12 v31 v32 v34 v37 v38 v42 v46 v63 v66 v70 v74) (k0_pay13 v31 v32 v34 v37 v38 v42 v46 v63 v66 v70 v74) (k0_pay14 v31 v32 v34 v37 v38 v42 v46 v63 v66 v70 v74) (ix2 r j)
      = cellH (fun e => k0_pay10 (F := Ideal) v31 v32 v34 v37 v38 v42 v46 v63 v66 v70 v74 (ix2 r e)) (fun j => v33 (ix2 r j)) j := by
  unfold k0_pay2 cellH
  dsimp only
  refine congrArg₂ (· * ·) ?_ (congrArg Ideal.tanh (pay1_apply v33 v31 v32 v34 v37 v38 v42 v46 v63 v66 v70 v74 r j))
  unfold k0_pay11
  exact cut_apply 60 _ _ r j (q3 j) (Nat.add_comm _ _)

end Cert.Lstm.Body

end
-- ==== Proof.BodyBlocks.lean ====
/-
  What the body leaves in each of its five output buffers, entry by entry, as the specification's row functions of
  the fifteen input blocks.

  Every buffer is written by one store of a whole block and every block is loaded whole, so a buffer holds the stored
  value itself.  Row `r` of the stored values is: the first cell's new hidden and cell states (`hidB`, `celB`) of the
  row's gradient entry, hidden state and cell state; the second cell's (`hid2B`, `cel2B`), whose input is the first
  cell's new hidden state of the same row; and the affine output (`outB`).  The weight blocks arrive transposed
  (`[K, 80]` rather than `[80, K]`) and the biases as `[1, 80]` rows, so weight `(e, k)` is read at `(k, e)` and bias
  `e` at `(0, e)`.
-/
import proofs.«152592_j76364518523026_2_alg».proof.Proof.Gen.KernelIdeal.Frame
import proofs.«152592_j76364518523026_2_alg».proof.Proof.BodyGates

noncomputable section

open scoped BigOperators

namespace Cert.Lstm.Body

open Cert.KernelIdeal Cert.KernelIdeal.Gen Cert.Lstm Idealize.ShloMosaic Idealize.ShloMosaic.ValueIdx

/-- The two zero offsets of a whole-block rectangle, as the constant function. -/
theorem hz : (![0, 0] : Fin 2 → Nat) = fun _ => 0 := funext fun a => by fin_cases a <;> rfl

/-- The fifteen input blocks of one grid point, in the order of the kernel's operands: the gradient column, the two
    hidden and two cell states (2000 rows each), then the transposed weights and the bias rows of the two cells, and
    the output layer's transposed weights and bias. -/
structure Blocks where
  x0 : Vec Ideal S2000x1 .f32
  x1 : Vec Ideal S2000x20 .f32
  x2 : Vec Ideal S2000x20 .f32
  x3 : Vec Ideal S2000x20 .f32
  x4 : Vec Ideal S2000x20 .f32
  x5 : Vec Ideal S2x80 .bf16
  x6 : Vec Ideal S20x80 .bf16
  x7 : Vec Ideal S1x80 .f32
  x8 : Vec Ideal S1x80 .f32
  x9 : Vec Ideal S20x80 .bf16
  x10 : Vec Ideal S20x80 .bf16
  x11 : Vec Ideal S1x80 .f32
  x12 : Vec Ideal S1x80 .f32
  x13 : Vec Ideal S20x1 .bf16
  x14 : Vec Ideal S1x1 .f32

variable (B : Blocks)

/-- First cell's pre-activations on block row `r`. -/
def gatB (r : Fin 2000) : Fin 80 → EReal :=
  gates (feat (B.x0 (ix2 r (0 : Fin 1)))) (fun e k => B.x5 (ix2 k e)) (fun e => B.x7 (ix2 (0 : Fin 1) e))
    (fun k => B.x1 (ix2 r k)) (fun e k => B.x6 (ix2 k e)) (fun e => B.x8 (ix2 (0 : Fin 1) e))
/-- First cell's new cell and hidden states on block row `r`. -/
def celB (r : Fin 2000) : Fin 20 → EReal := cellC (gatB B r) (fun j => B.x3 (ix2 r j))
def hidB (r : Fin 2000) : Fin 20 → EReal := cellH (gatB B r) (fun j => B.x3 (ix2 r j))
/-- Second cell's pre-activations on block row `r`. -/
def gat2B (r : Fin 2000) : Fin 80 → EReal :=
  gates (hidB B r) (fun e k => B.x9 (ix2 k e)) (fun e => B.x11 (ix2 (0 : Fin 1) e))
    (fun k => B.x2 (ix2 r k)) (fun e k => B.x10 (ix2 k e)) (fun e => B.x12 (ix2 (0 : Fin 1) e))
/-- Second cell's new cell and hidden states on block row `r`. -/
def cel2B (r : Fin 2000) : Fin 20 → EReal := cellC (gat2B B r) (fun j => B.x4 (ix2 r j))
def hid2B (r : Fin 2000) : Fin 20 → EReal := cellH (gat2B B r) (fun j => B.x4 (ix2 r j))
/-- The output entry of block row `r`. -/
def outB (r : Fin 2000) : EReal := (∑ k : Fin 20, hid2B B r k * B.x13 (ix2 k (0 : Fin 1))) + B.x14 (ix2 (0 : Fin 1) (0 : Fin 1))

/-! ## The stored values at an entry -/

theorem gates1_apply (r : Fin 2000) (e : Fin 80) :
    k0_pay6 (F := Ideal) (k0_pay4 B.x1) (k0_pay5 B.x0 B.x5) B.x7 B.x6 B.x8 (ix2 r e) = gatB B r e := by
  rw [pay6_apply, pay5_apply]
  rfl

theorem cel1_apply (r : Fin 2000) (j : Fin 20) :
    k0_pay8 (F := Ideal) B.x3 (k0_pay4 B.x1) (k0_pay5 B.x0 B.x5) B.x7 B.x6 B.x8 (ix2 r j) = celB B r j :=
  (pay8_apply B.x3 (k0_pay4 B.x1) (k0_pay5 B.x0 B.x5) B.x7 B.x6 B.x8 r j).trans
    (congrArg (fun g => cellC g (fun j => B.x3 (ix2 r j)) j) (funext fun e => gates1_apply B r e))

theorem hid1_apply (r : Fin 2000) (j : Fin 20) :
    k0_pay9 (F := Ideal) B.x3 (k0_pay4 B.x1) (k0_pay5 B.x0 B.x5) B.x7 B.x6 B.x8 (ix2 r j) = hidB B r j :=
  (pay9_apply B.x3 (k0_pay4 B.x1) (k0_pay5 B.x0 B.x5) B.x7 B.x6 B.x8 r j).trans
    (congrArg (fun g => cellH g (fun j => B.x3 (ix2 r j)) j) (funext fun e => gates1_apply B r e))

theorem gates2_apply (r : Fin 2000) (e : Fin 80) :
    k0_pay10 (F := Ideal) B.x3 B.x2 (k0_pay4 B.x1) (k0_pay5 B.x0 B.x5) B.x7 B.x6 B.x8 B.x9 B.x11 B.x10 B.x12 (ix2 r e) = gat2B B r e := by
  rw [pay10_apply]
  unfold gat2B gates
  refine congrArg₂ (· + ·) (congrArg₂ (· + ·) (congrArg₂ (· + ·) ?_ rfl) rfl) rfl
  exact Finset.sum_congr rfl fun k _ => congrArg (· * B.x9 (ix2 k e)) (hid1_apply B r k)

theorem cel2_apply (r : Fin 2000) (j : Fin 20) :
    k0_pay1 (F := Ideal) B.x4 (k0_pay12 B.x3 B.x2 (k0_pay4 B.x1) (k0_pay5 B.x0 B.x5) B.x7 B.x6 B.x8 B.x9 B.x11 B.x10 B.x12) (k0_pay13 B.x3 B.x2 (k0_pay4 B.x1) (k0_pay5 B.x0 B.x5) B.x7 B.x6 B.x8 B.x9 B.x11 B.x10 B.x12) (k0_pay14 B.x3 B.x2 (k0_pay4 B.x1) (k0_pay5 B.x0 B.x5) B.x7 B.x6 B.x8 B.x9 B.x11 B.x10 B.x12) (ix2 r j) = cel2B B r j :=
  (pay1_apply B.x4 B.x3 B.x2 (k0_pay4 B.x1) (k0_pay5 B.x0 B.x5) B.x7 B.x6 B.x8 B.x9 B.x11 B.x10 B.x12 r j).trans
    (congrArg (fun g => cellC g (fun j => B.x4 (ix2 r j)) j) (funext fun e => gates2_apply B r e))

theorem hid2_apply (r : Fin 2000) (j : Fin 20) :
    k0_pay2 (F := Ideal) B.x4 (k0_pay11 B.x3 B.x2 (k0_pay4 B.x1) (k0_pay5 B.x0 B.x5) B.x7 B.x6 B.x8 B.x9 B.x11 B.x10 B.x12) (k0_pay12 B.x3 B.x2 (k0_pay4 B.x1) (k0_pay5 B.x0 B.x5) B.x7 B.x6 B.x8 B.x9 B.x11 B.x10 B.x12) (k0_pay13 B.x3 B.x2 (k0_pay4 B.x1) (k0_pay5 B.x0 B.x5) B.x7 B.x6 B.x8 B.x9 B.x11 B.x10 B.x12) (k0_pay14 B.x3 B.x2 (k0_pay4 B.x1) (k0_pay5 B.x0 B.x5) B.x7 B.x6 B.x8 B.x9 B.x11 B.x10 B.x12) (ix2 r j) = hid2B B r j :=
  (pay2_apply B.x4 B.x3 B.x2 (k0_pay4 B.x1) (k0_pay5 B.x0 B.x5) B.x7 B.x6 B.x8 B.x9 B.x11 B.x10 B.x12 r j).trans
    (congrArg (fun g => cellH g (fun j => B.x4 (ix2 r j)) j) (funext fun e => gates2_apply B r e))

theorem outv_apply (r : Fin 2000) (z : Fin 1) :
    k0_pay3 (F := Ideal) B.x4 (k0_pay11 B.x3 B.x2 (k0_pay4 B.x1) (k0_pay5 B.x0 B.x5) B.x7 B.x6 B.x8 B.x9 B.x11 B.x10 B.x12) (k0_pay12 B.x3 B.x2 (k0_pay4 B.x1) (k0_pay5 B.x0 B.x5) B.x7 B.x6 B.x8 B.x9 B.x11 B.x10 B.x12) (k0_pay13 B.x3 B.x2 (k0_pay4 B.x1) (k0_pay5 B.x0 B.x5) B.x7 B.x6 B.x8 B.x9 B.x11 B.x10 B.x12) (k0_pay14 B.x3 B.x2 (k0_pay4 B.x1) (k0_pay5 B.x0 B.x5) B.x7 B.x6 B.x8 B.x9 B.x11 B.x10 B.x12) B.x13 B.x14 (ix2 r z) = outB B r := by
  rw [pay3_apply]
  obtain rfl : z = 0 := Subsingleton.elim _ _
  unfold outB
  refine congrArg₂ (· + ·) ?_ rfl
  exact Finset.sum_congr rfl fun k _ => congrArg (· * B.x13 (ix2 k (0 : Fin 1))) (hid2_apply B r k)

/-! ## The five output buffers -/

/-- Output buffer (window 15): the affine output. -/
theorem out15_apply (r : Fin 2000) (z : Fin 1) : out0_15 (F := Ideal) B.x0 B.x1 B.x2 B.x3 B.x4 B.x5 B.x6 B.x7 B.x8 B.x9 B.x10 B.x11 B.x12 B.x13 B.x14 (ix2 r z) = outB B r := by
  unfold out0_15
  rw [View.canon_unit_zero hz]
  simp only [View.ld_unit_zero (S := S2000x1) hz, View.ld_unit_zero (S := S2000x20) hz, View.ld_unit_zero (S := S2x80) hz,
    View.ld_unit_zero (S := S1x80) hz, View.ld_unit_zero (S := S20x80) hz, View.ld_unit_zero (S := S20x1) hz,
    View.ld_unit_zero (S := S1x1) hz]
  exact outv_apply B r z

/-- Output buffer (window 16): the first cell's new hidden state. -/
theorem out16_apply (r : Fin 2000) (j : Fin 20) : out0_16 (F := Ideal) B.x0 B.x1 B.x2 B.x3 B.x4 B.x5 B.x6 B.x7 B.x8 B.x9 B.x10 B.x11 B.x12 B.x13 B.x14 (ix2 r j) = hidB B r j := by
  unfold out0_16
  rw [View.canon_unit_zero hz]
  simp only [View.ld_unit_zero (S := S2000x1) hz, View.ld_unit_zero (S := S2000x20) hz, View.ld_unit_zero (S := S2x80) hz,
    View.ld_unit_zero (S := S1x80) hz, View.ld_unit_zero (S := S20x80) hz, View.ld_unit_zero (S := S20x1) hz,
    View.ld_unit_zero (S := S1x1) hz]
  exact hid1_apply B r j

/-- Output buffer (window 17): the second cell's new hidden state. -/
theorem out17_apply (r : Fin 2000) (j : Fin 20) : out0_17 (F := Ideal) B.x0 B.x1 B.x2 B.x3 B.x4 B.x5 B.x6 B.x7 B.x8 B.x9 B.x10 B.x11 B.x12 B.x13 B.x14 (ix2 r j) = hid2B B r j := by
  unfold out0_17
  rw [View.canon_unit_zero hz]
  simp only [View.ld_unit_zero (S := S2000x1) hz, View.ld_unit_zero (S := S2000x20) hz, View.ld_unit_zero (S := S2x80) hz,
    View.ld_unit_zero (S := S1x80) hz, View.ld_unit_zero (S := S20x80) hz, View.ld_unit_zero (S := S20x1) hz,
    View.ld_unit_zero (S := S1x1) hz]
  exact hid2_apply B r j

/-- Output buffer (window 18): the first cell's new cell state. -/
theorem out18_apply (r : Fin 2000) (j : Fin 20) : out0_18 (F := Ideal) B.x0 B.x1 B.x2 B.x3 B.x4 B.x5 B.x6 B.x7 B.x8 B.x9 B.x10 B.x11 B.x12 B.x13 B.x14 (ix2 r j) = celB B r j := by
  unfold out0_18
  rw [View.canon_unit_zero hz]
  simp only [View.ld_unit_zero (S := S2000x1) hz, View.ld_unit_zero (S := S2000x20) hz, View.ld_unit_zero (S := S2x80) hz,
    View.ld_unit_zero (S := S1x80) hz, View.ld_unit_zero (S := S20x80) hz, View.ld_unit_zero (S := S20x1) hz,
    View.ld_unit_zero (S := S1x1) hz]
  exact cel1_apply B r j

/-- Output buffer (window 19): the second cell's new cell state. -/
theorem out19_apply (r : Fin 2000) (j : Fin 20) : out0_19 (F := Ideal) B.x0 B.x1 B.x2 B.x3 B.x4 B.x5 B.x6 B.x7 B.x8 B.x9 B.x10 B.x11 B.x12 B.x13 B.x14 (ix2 r j) = cel2B B r j := by
  unfold out0_19
  rw [View.canon_unit_zero hz]
  simp only [View.ld_unit_zero (S := S2000x1) hz, View.ld_unit_zero (S := S2000x20) hz, View.ld_unit_zero (S := S2x80) hz,
    View.ld_unit_zero (S := S1x80) hz, View.ld_unit_zero (S := S20x80) hz, View.ld_unit_zero (S := S20x1) hz,
    View.ld_unit_zero (S := S1x1) hz]
  exact cel2_apply B r j

end Cert.Lstm.Body

end
-- ==== Proof.Rows.lean ====
/-
  The grid cuts the million rows of the batch into 500 consecutive blocks of 2000 rows: grid point `t` works on rows
  `2000 t … 2000 t + 1999`.  `grow t r` is the row of a whole array that sits at row `r` of block `t`.
-/
import proofs.«152592_j76364518523026_2_alg».proof.Proof.Gen.KernelIdeal.Launch

noncomputable section

open Idealize.ShloMosaic Idealize.ShloMosaic.TcCoe Idealize.SL.Sem

namespace Cert.Lstm.Launch

open Cert.KernelIdeal Cert.KernelIdeal.Gen

/-- The grid has 500 points. -/
theorem gridN : cfg0.N = 500 := N_0

/-- Row `r` of block `t` is row `2000 t + r` of the whole array. -/
def grow (t : Fin cfg0.N) (r : Fin 2000) : Fin 1000000 :=
  ⟨t.val * 2000 + r.val, by have h : t.val < 500 := lt_of_lt_of_eq t.isLt gridN; have := r.isLt; omega⟩

theorem grow_val (t : Fin cfg0.N) (r : Fin 2000) : (grow t r).val = t.val * 2000 + r.val := rfl

end Cert.Lstm.Launch

end
-- ==== Proof.Blocks.lean ====
/-
  The five per-row inputs (the gradient column, the two hidden states, the two cell states) reach the body in blocks
  of 2000 rows.  At grid point `t` the block of each is rows `2000 t … 2000 t + 1999` of the argument array, all
  columns: entry `(r, k)` of the block is entry `(2000 t + r, k)` of the array.  No operation before the region
  writes these arrays, so the region finds them as they were passed.
-/
import proofs.«152592_j76364518523026_2_alg».proof.Proof.Rows
import proofs.«152592_j76364518523026_2_alg».proof.Proof.Gen.KernelIdeal.Frame
import Idealize.ShloMosaic.Lib.ValueIdx

noncomputable section

open Idealize.ShloMosaic Idealize.ShloMosaic.TcCoe Idealize.SL.Sem

namespace Cert.Lstm.Launch

open Cert.KernelIdeal Cert.KernelIdeal.Gen

variable (m : (ℓ : Loc nD τ sig) → Buf (Elt Ideal) ℓ)

/-! ## Input 0: the gradient column -/

/-- Its block index at point `t` is `t` along the rows and `0` along the columns (checked at each of the 500 points). -/
theorem rowBlockIndex0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- So entry `y` of the block sits in the array at row `2000 t + y 0`, column `y 1`. -/
theorem rowBlockPlace0 (t : Fin cfg0.N) (y : S2000x1.Idx) :
    ((cfg0.win 0).blk t).view.emb y = ValueIdx.ix2 (n0 := 1000000) (n1 := 1) (grow t (y 0)) (y 1) := by
  obtain ⟨e0, e1⟩ := rowBlockIndex0 t
  funext a; apply Fin.ext
  match a with
  | ⟨0, _⟩ => show win0_0.index t (0 : Fin 2) * 2000 + 1 * (y 0).val = t.val * 2000 + (y 0).val; rw [e0]; omega
  | ⟨1, _⟩ => show win0_0.index t (1 : Fin 2) * 1 + 1 * (y 1).val = (y 1).val; rw [e1]; omega

/-- The block at point `t`, read at `y`, is the argument array at row `2000 t + y 0`, column `y 1`. -/
theorem blk0 (c : Dev nD) (t : Fin cfg0.N) (y : S2000x1.Idx) :
    iblk (F := Ideal) m c 0 t y
      = m ((c : Thread nD τ).loc main_arg0) (ValueIdx.ix2 (n0 := 1000000) (n1 := 1) (grow t (y 0)) (y 1)) := by
  show V m c main_arg0 (((cfg0.win 0).blk t).view.emb y) = _
  rw [rowBlockPlace0, V_main_arg0]

/-! ## Input 1: the first cell's hidden state -/

/-- Its block index at point `t` is `t` along the rows and `0` along the columns (checked at each of the 500 points). -/
theorem rowBlockIndex1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- So entry `y` of the block sits in the array at row `2000 t + y 0`, column `y 1`. -/
theorem rowBlockPlace1 (t : Fin cfg0.N) (y : S2000x20.Idx) :
    ((cfg0.win 1).blk t).view.emb y = ValueIdx.ix2 (n0 := 1000000) (n1 := 20) (grow t (y 0)) (y 1) := by
  obtain ⟨e0, e1⟩ := rowBlockIndex1 t
  funext a; apply Fin.ext
  match a with
  | ⟨0, _⟩ => show win0_1.index t (0 : Fin 2) * 2000 + 1 * (y 0).val = t.val * 2000 + (y 0).val; rw [e0]; omega
  | ⟨1, _⟩ => show win0_1.index t (1 : Fin 2) * 20 + 1 * (y 1).val = (y 1).val; rw [e1]; omega

/-- The block at point `t`, read at `y`, is the argument array at row `2000 t + y 0`, column `y 1`. -/
theorem blk1 (c : Dev nD) (t : Fin cfg0.N) (y : S2000x20.Idx) :
    iblk (F := Ideal) m c 1 t y
      = m ((c : Thread nD τ).loc main_arg1) (ValueIdx.ix2 (n0 := 1000000) (n1 := 20) (grow t (y 0)) (y 1)) := by
  show V m c main_arg1 (((cfg0.win 1).blk t).view.emb y) = _
  rw [rowBlockPlace1, V_main_arg1]

/-! ## Input 2: the second cell's hidden state -/

/-- Its block index at point `t` is `t` along the rows and `0` along the columns (checked at each of the 500 points). -/
theorem rowBlockIndex2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- So entry `y` of the block sits in the array at row `2000 t + y 0`, column `y 1`. -/
theorem rowBlockPlace2 (t : Fin cfg0.N) (y : S2000x20.Idx) :
    ((cfg0.win 2).blk t).view.emb y = ValueIdx.ix2 (n0 := 1000000) (n1 := 20) (grow t (y 0)) (y 1) := by
  obtain ⟨e0, e1⟩ := rowBlockIndex2 t
  funext a; apply Fin.ext
  match a with
  | ⟨0, _⟩ => show win0_2.index t (0 : Fin 2) * 2000 + 1 * (y 0).val = t.val * 2000 + (y 0).val; rw [e0]; omega
  | ⟨1, _⟩ => show win0_2.index t (1 : Fin 2) * 20 + 1 * (y 1).val = (y 1).val; rw [e1]; omega

/-- The block at point `t`, read at `y`, is the argument array at row `2000 t + y 0`, column `y 1`. -/
theorem blk2 (c : Dev nD) (t : Fin cfg0.N) (y : S2000x20.Idx) :
    iblk (F := Ideal) m c 2 t y
      = m ((c : Thread nD τ).loc main_arg2) (ValueIdx.ix2 (n0 := 1000000) (n1 := 20) (grow t (y 0)) (y 1)) := by
  show V m c main_arg2 (((cfg0.win 2).blk t).view.emb y) = _
  rw [rowBlockPlace2, V_main_arg2]

/-! ## Input 3: the first cell's cell state -/

/-- Its block index at point `t` is `t` along the rows and `0` along the columns (checked at each of the 500 points). -/
theorem rowBlockIndex3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- So entry `y` of the block sits in the array at row `2000 t + y 0`, column `y 1`. -/
theorem rowBlockPlace3 (t : Fin cfg0.N) (y : S2000x20.Idx) :
    ((cfg0.win 3).blk t).view.emb y = ValueIdx.ix2 (n0 := 1000000) (n1 := 20) (grow t (y 0)) (y 1) := by
  obtain ⟨e0, e1⟩ := rowBlockIndex3 t
  funext a; apply Fin.ext
  match a with
  | ⟨0, _⟩ => show win0_3.index t (0 : Fin 2) * 2000 + 1 * (y 0).val = t.val * 2000 + (y 0).val; rw [e0]; omega
  | ⟨1, _⟩ => show win0_3.index t (1 : Fin 2) * 20 + 1 * (y 1).val = (y 1).val; rw [e1]; omega

/-- The block at point `t`, read at `y`, is the argument array at row `2000 t + y 0`, column `y 1`. -/
theorem blk3 (c : Dev nD) (t : Fin cfg0.N) (y : S2000x20.Idx) :
    iblk (F := Ideal) m c 3 t y
      = m ((c : Thread nD τ).loc main_arg3) (ValueIdx.ix2 (n0 := 1000000) (n1 := 20) (grow t (y 0)) (y 1)) := by
  show V m c main_arg3 (((cfg0.win 3).blk t).view.emb y) = _
  rw [rowBlockPlace3, V_main_arg3]

/-! ## Input 4: the second cell's cell state -/

/-- Its block index at point `t` is `t` along the rows and `0` along the columns (checked at each of the 500 points). -/
theorem rowBlockIndex4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- So entry `y` of the block sits in the array at row `2000 t + y 0`, column `y 1`. -/
theorem rowBlockPlace4 (t : Fin cfg0.N) (y : S2000x20.Idx) :
    ((cfg0.win 4).blk t).view.emb y = ValueIdx.ix2 (n0 := 1000000) (n1 := 20) (grow t (y 0)) (y 1) := by
  obtain ⟨e0, e1⟩ := rowBlockIndex4 t
  funext a; apply Fin.ext
  match a with
  | ⟨0, _⟩ => show win0_4.index t (0 : Fin 2) * 2000 + 1 * (y 0).val = t.val * 2000 + (y 0).val; rw [e0]; omega
  | ⟨1, _⟩ => show win0_4.index t (1 : Fin 2) * 20 + 1 * (y 1).val = (y 1).val; rw [e1]; omega

/-- The block at point `t`, read at `y`, is the argument array at row `2000 t + y 0`, column `y 1`. -/
theorem blk4 (c : Dev nD) (t : Fin cfg0.N) (y : S2000x20.Idx) :
    iblk (F := Ideal) m c 4 t y
      = m ((c : Thread nD τ).loc main_arg4) (ValueIdx.ix2 (n0 := 1000000) (n1 := 20) (grow t (y 0)) (y 1)) := by
  show V m c main_arg4 (((cfg0.win 4).blk t).view.emb y) = _
  rw [rowBlockPlace4, V_main_arg4]

end Cert.Lstm.Launch

end
-- ==== Proof.Resident.lean ====
/-
  The ten parameter arrays (weights and biases) are the same block at every grid point: the whole array.  What the
  region finds in them was written before it from the arguments:

  * a weight matrix `W : [80, K]` is transposed to `[K, 80]` and then narrowed to half precision, which on the
    extended reals changes nothing: entry `(k, e)` of the block is `W (e, k)`;
  * the output layer's weights `[1, 20]` likewise become `[20, 1]`: entry `(k, 0)` is `Wout (0, k)`;
  * a bias `b : [80]` is viewed as one row `[1, 80]`: entry `(0, e)` of the block is `b e`; the scalar bias `[1]`
    is viewed as `[1, 1]`.
-/
import proofs.«152592_j76364518523026_2_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem

namespace Cert.Lstm.Launch

open Cert.KernelIdeal Cert.KernelIdeal.Gen

variable (m : (ℓ : Loc nD τ sig) → Buf (Elt Ideal) ℓ)

/-! ## Weight matrices: transposed, then narrowed -/

/-! ### Input 5: the first cell's input weights -/

/-- Its block index is `0` on both axes at every point (checked at each of the 500 points). -/
theorem wholeIndex5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- So an entry of the block sits at the same place in the array. -/
theorem wholePlace5 (t : Fin cfg0.N) (y : S2x80.Idx) : ((cfg0.win 5).blk t).view.emb y = y := by
  obtain ⟨e0, e1⟩ := wholeIndex5 t
  funext a; apply Fin.ext
  match a with
  | ⟨0, _⟩ => show win0_5.index t (0 : Fin 2) * 2 + 1 * (y 0).val = (y 0).val; rw [e0]; omega
  | ⟨1, _⟩ => show win0_5.index t (1 : Fin 2) * 80 + 1 * (y 1).val = (y 1).val; rw [e1]; omega

/-- The array the region finds: the argument transposed, then narrowed. -/
theorem staged5 (c : Dev nD) : (V m c main_v1 : FVec Ideal S2x80 .bf16)
    = truncf .bf16 (transpose S2x80 [1, 0] (m ((c : Thread nD τ).loc main_arg5) : S80x2.Idx → EReal) transposes_S80x2_S2x80_1_0 : FVec Ideal S2x80 .f32) bitsLt_bf16_f32 := by
  dsimp only [Gen.V, Gen.hostOps0]
  after_results

/-- The block, read at `(k, e)`, is the argument at `(e, k)`. -/
theorem blk5 (c : Dev nD) (t : Fin cfg0.N) (y : S2x80.Idx) :
    iblk (F := Ideal) m c 5 t y
      = m ((c : Thread nD τ).loc main_arg5) (ValueIdx.ix2 (n0 := 80) (n1 := 2) (y 1) (y 0)) := by
  show V m c main_v1 (((cfg0.win 5).blk t).view.emb y) = _
  rw [wholePlace5, staged5]
  exact transpose_apply [1, 0] _ transposes_S80x2_S2x80_1_0 y (ValueIdx.ix2 (n0 := 80) (n1 := 2) (y 1) (y 0)) (fun b => match b with
    | ⟨0, _⟩ => rfl
    | ⟨1, _⟩ => rfl)

/-! ### Input 6: the first cell's hidden weights -/

/-- Its block index is `0` on both axes at every point (checked at each of the 500 points). -/
theorem wholeIndex6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- So an entry of the block sits at the same place in the array. -/
theorem wholePlace6 (t : Fin cfg0.N) (y : S20x80.Idx) : ((cfg0.win 6).blk t).view.emb y = y := by
  obtain ⟨e0, e1⟩ := wholeIndex6 t
  funext a; apply Fin.ext
  match a with
  | ⟨0, _⟩ => show win0_6.index t (0 : Fin 2) * 20 + 1 * (y 0).val = (y 0).val; rw [e0]; omega
  | ⟨1, _⟩ => show win0_6.index t (1 : Fin 2) * 80 + 1 * (y 1).val = (y 1).val; rw [e1]; omega

/-- The array the region finds: the argument transposed, then narrowed. -/
theorem staged6 (c : Dev nD) : (V m c main_v3 : FVec Ideal S20x80 .bf16)
    = truncf .bf16 (transpose S20x80 [1, 0] (m ((c : Thread nD τ).loc main_arg6) : S80x20.Idx → EReal) transposes_S80x20_S20x80_1_0 : FVec Ideal S20x80 .f32) bitsLt_bf16_f32 := by
  dsimp only [Gen.V, Gen.hostOps0]
  after_results

/-- The block, read at `(k, e)`, is the argument at `(e, k)`. -/
theorem blk6 (c : Dev nD) (t : Fin cfg0.N) (y : S20x80.Idx) :
    iblk (F := Ideal) m c 6 t y
      = m ((c : Thread nD τ).loc main_arg6) (ValueIdx.ix2 (n0 := 80) (n1 := 20) (y 1) (y 0)) := by
  show V m c main_v3 (((cfg0.win 6).blk t).view.emb y) = _
  rw [wholePlace6, staged6]
  exact transpose_apply [1, 0] _ transposes_S80x20_S20x80_1_0 y (ValueIdx.ix2 (n0 := 80) (n1 := 20) (y 1) (y 0)) (fun b => match b with
    | ⟨0, _⟩ => rfl
    | ⟨1, _⟩ => rfl)

/-! ### Input 9: the second cell's input weights -/

/-- Its block index is `0` on both axes at every point (checked at each of the 500 points). -/
theorem wholeIndex9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- So an entry of the block sits at the same place in the array. -/
theorem wholePlace9 (t : Fin cfg0.N) (y : S20x80.Idx) : ((cfg0.win 9).blk t).view.emb y = y := by
  obtain ⟨e0, e1⟩ := wholeIndex9 t
  funext a; apply Fin.ext
  match a with
  | ⟨0, _⟩ => show win0_9.index t (0 : Fin 2) * 20 + 1 * (y 0).val = (y 0).val; rw [e0]; omega
  | ⟨1, _⟩ => show win0_9.index t (1 : Fin 2) * 80 + 1 * (y 1).val = (y 1).val; rw [e1]; omega

/-- The array the region finds: the argument transposed, then narrowed. -/
theorem staged9 (c : Dev nD) : (V m c main_v5 : FVec Ideal S20x80 .bf16)
    = truncf .bf16 (transpose S20x80 [1, 0] (m ((c : Thread nD τ).loc main_arg9) : S80x20.Idx → EReal) transposes_S80x20_S20x80_1_0 : FVec Ideal S20x80 .f32) bitsLt_bf16_f32 := by
  dsimp only [Gen.V, Gen.hostOps0]
  after_results

/-- The block, read at `(k, e)`, is the argument at `(e, k)`. -/
theorem blk9 (c : Dev nD) (t : Fin cfg0.N) (y : S20x80.Idx) :
    iblk (F := Ideal) m c 9 t y
      = m ((c : Thread nD τ).loc main_arg9) (ValueIdx.ix2 (n0 := 80) (n1 := 20) (y 1) (y 0)) := by
  show V m c main_v5 (((cfg0.win 9).blk t).view.emb y) = _
  rw [wholePlace9, staged9]
  exact transpose_apply [1, 0] _ transposes_S80x20_S20x80_1_0 y (ValueIdx.ix2 (n0 := 80) (n1 := 20) (y 1) (y 0)) (fun b => match b with
    | ⟨0, _⟩ => rfl
    | ⟨1, _⟩ => rfl)

/-! ### Input 10: the second cell's hidden weights -/

/-- Its block index is `0` on both axes at every point (checked at each of the 500 points). -/
theorem wholeIndex10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-- So an entry of the block sits at the same place in the array. -/
theorem wholePlace10 (t : Fin cfg0.N) (y : S20x80.Idx) : ((cfg0.win 10).blk t).view.emb y = y := by
  obtain ⟨e0, e1⟩ := wholeIndex10 t
  funext a; apply Fin.ext
  match a with
  | ⟨0, _⟩ => show win0_10.index t (0 : Fin 2) * 20 + 1 * (y 0).val = (y 0).val; rw [e0]; omega
  | ⟨1, _⟩ => show win0_10.index t (1 : Fin 2) * 80 + 1 * (y 1).val = (y 1).val; rw [e1]; omega

/-- The array the region finds: the argument transposed, then narrowed. -/
theorem staged10 (c : Dev nD) : (V m c main_v7 : FVec Ideal S20x80 .bf16)
    = truncf .bf16 (transpose S20x80 [1, 0] (m ((c : Thread nD τ).loc main_arg10) : S80x20.Idx → EReal) transposes_S80x20_S20x80_1_0 : FVec Ideal S20x80 .f32) bitsLt_bf16_f32 := by
  dsimp only [Gen.V, Gen.hostOps0]
  after_results

/-- The block, read at `(k, e)`, is the argument at `(e, k)`. -/
theorem blk10 (c : Dev nD) (t : Fin cfg0.N) (y : S20x80.Idx) :
    iblk (F := Ideal) m c 10 t y
      = m ((c : Thread nD τ).loc main_arg10) (ValueIdx.ix2 (n0 := 80) (n1 := 20) (y 1) (y 0)) := by
  show V m c main_v7 (((cfg0.win 10).blk t).view.emb y) = _
  rw [wholePlace10, staged10]
  exact transpose_apply [1, 0] _ transposes_S80x20_S20x80_1_0 y (ValueIdx.ix2 (n0 := 80) (n1 := 20) (y 1) (y 0)) (fun b => match b with
    | ⟨0, _⟩ => rfl
    | ⟨1, _⟩ => rfl)

/-! ### Input 13: the output layer's weights -/

/-- Its block index is `0` on both axes at every point (checked at each of the 500 points). -/
theorem wholeIndex13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

/-- So an entry of the block sits at the same place in the array. -/
theorem wholePlace13 (t : Fin cfg0.N) (y : S20x1.Idx) : ((cfg0.win 13).blk t).view.emb y = y := by
  obtain ⟨e0, e1⟩ := wholeIndex13 t
  funext a; apply Fin.ext
  match a with
  | ⟨0, _⟩ => show win0_13.index t (0 : Fin 2) * 20 + 1 * (y 0).val = (y 0).val; rw [e0]; omega
  | ⟨1, _⟩ => show win0_13.index t (1 : Fin 2) * 1 + 1 * (y 1).val = (y 1).val; rw [e1]; omega

/-- The array the region finds: the argument transposed, then narrowed. -/
theorem staged13 (c : Dev nD) : (V m c main_v9 : FVec Ideal S20x1 .bf16)
    = truncf .bf16 (transpose S20x1 [1, 0] (m ((c : Thread nD τ).loc main_arg13) : S1x20.Idx → EReal) transposes_S1x20_S20x1_1_0 : FVec Ideal S20x1 .f32) bitsLt_bf16_f32 := by
  dsimp only [Gen.V, Gen.hostOps0]
  after_results

/-- The block, read at `(k, e)`, is the argument at `(e, k)`. -/
theorem blk13 (c : Dev nD) (t : Fin cfg0.N) (y : S20x1.Idx) :
    iblk (F := Ideal) m c 13 t y
      = m ((c : Thread nD τ).loc main_arg13) (ValueIdx.ix2 (n0 := 1) (n1 := 20) (y 1) (y 0)) := by
  show V m c main_v9 (((cfg0.win 13).blk t).view.emb y) = _
  rw [wholePlace13, staged13]
  exact transpose_apply [1, 0] _ transposes_S1x20_S20x1_1_0 y (ValueIdx.ix2 (n0 := 1) (n1 := 20) (y 1) (y 0)) (fun b => match b with
    | ⟨0, _⟩ => rfl
    | ⟨1, _⟩ => rfl)

/-! ## Biases: a vector viewed as one row -/

/-! ### Input 7: the first cell's input bias -/

/-- Its block index is `0` on both axes at every point (checked at each of the 500 points). -/
theorem wholeIndex7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- So an entry of the block sits at the same place in the array. -/
theorem wholePlace7 (t : Fin cfg0.N) (y : S1x80.Idx) : ((cfg0.win 7).blk t).view.emb y = y := by
  obtain ⟨e0, e1⟩ := wholeIndex7 t
  funext a; apply Fin.ext
  match a with
  | ⟨0, _⟩ => show win0_7.index t (0 : Fin 2) * 1 + 1 * (y 0).val = (y 0).val; rw [e0]; omega
  | ⟨1, _⟩ => show win0_7.index t (1 : Fin 2) * 80 + 1 * (y 1).val = (y 1).val; rw [e1]; omega

/-- The array the region finds: the argument with a unit axis added in front. -/
theorem staged7 (c : Dev nD) : (V m c main_v10 : FVec Ideal S1x80 .f32)
    = shapeCast S1x80 (m ((c : Thread nD τ).loc main_arg7) : S80.Idx → EReal) shapeCasts_S80_S1x80 := by
  dsimp only [Gen.V, Gen.hostOps0]
  after_results
  rfl

/-- The block, read at `(0, e)`, is the argument at `e`. -/
theorem blk7 (c : Dev nD) (t : Fin cfg0.N) (y : S1x80.Idx) :
    iblk (F := Ideal) m c 7 t y
      = m ((c : Thread nD τ).loc main_arg7) (ValueIdx.ix1 (n := 80) (y 1)) := by
  show V m c main_v10 (((cfg0.win 7).blk t).view.emb y) = _
  rw [wholePlace7, staged7]
  refine shapeCast_apply _ shapeCasts_S80_S1x80 y (ValueIdx.ix1 (n := 80) (y 1)) ?_
  rw [Shape.rowMajor_val_one, Shape.rowMajor_val_two]
  show (y 1).val = (y 0).val * 80 + (y 1).val
  have h0 : (y 0).val < 1 := (y 0).isLt
  omega

/-! ### Input 8: the first cell's hidden bias -/

/-- Its block index is `0` on both axes at every point (checked at each of the 500 points). -/
theorem wholeIndex8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- So an entry of the block sits at the same place in the array. -/
theorem wholePlace8 (t : Fin cfg0.N) (y : S1x80.Idx) : ((cfg0.win 8).blk t).view.emb y = y := by
  obtain ⟨e0, e1⟩ := wholeIndex8 t
  funext a; apply Fin.ext
  match a with
  | ⟨0, _⟩ => show win0_8.index t (0 : Fin 2) * 1 + 1 * (y 0).val = (y 0).val; rw [e0]; omega
  | ⟨1, _⟩ => show win0_8.index t (1 : Fin 2) * 80 + 1 * (y 1).val = (y 1).val; rw [e1]; omega

/-- The array the region finds: the argument with a unit axis added in front. -/
theorem staged8 (c : Dev nD) : (V m c main_v11 : FVec Ideal S1x80 .f32)
    = shapeCast S1x80 (m ((c : Thread nD τ).loc main_arg8) : S80.Idx → EReal) shapeCasts_S80_S1x80 := by
  dsimp only [Gen.V, Gen.hostOps0]
  after_results
  rfl

/-- The block, read at `(0, e)`, is the argument at `e`. -/
theorem blk8 (c : Dev nD) (t : Fin cfg0.N) (y : S1x80.Idx) :
    iblk (F := Ideal) m c 8 t y
      = m ((c : Thread nD τ).loc main_arg8) (ValueIdx.ix1 (n := 80) (y 1)) := by
  show V m c main_v11 (((cfg0.win 8).blk t).view.emb y) = _
  rw [wholePlace8, staged8]
  refine shapeCast_apply _ shapeCasts_S80_S1x80 y (ValueIdx.ix1 (n := 80) (y 1)) ?_
  rw [Shape.rowMajor_val_one, Shape.rowMajor_val_two]
  show (y 1).val = (y 0).val * 80 + (y 1).val
  have h0 : (y 0).val < 1 := (y 0).isLt
  omega

/-! ### Input 11: the second cell's input bias -/

/-- Its block index is `0` on both axes at every point (checked at each of the 500 points). -/
theorem wholeIndex11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- So an entry of the block sits at the same place in the array. -/
theorem wholePlace11 (t : Fin cfg0.N) (y : S1x80.Idx) : ((cfg0.win 11).blk t).view.emb y = y := by
  obtain ⟨e0, e1⟩ := wholeIndex11 t
  funext a; apply Fin.ext
  match a with
  | ⟨0, _⟩ => show win0_11.index t (0 : Fin 2) * 1 + 1 * (y 0).val = (y 0).val; rw [e0]; omega
  | ⟨1, _⟩ => show win0_11.index t (1 : Fin 2) * 80 + 1 * (y 1).val = (y 1).val; rw [e1]; omega

/-- The array the region finds: the argument with a unit axis added in front. -/
theorem staged11 (c : Dev nD) : (V m c main_v12 : FVec Ideal S1x80 .f32)
    = shapeCast S1x80 (m ((c : Thread nD τ).loc main_arg11) : S80.Idx → EReal) shapeCasts_S80_S1x80 := by
  dsimp only [Gen.V, Gen.hostOps0]
  after_results
  rfl

/-- The block, read at `(0, e)`, is the argument at `e`. -/
theorem blk11 (c : Dev nD) (t : Fin cfg0.N) (y : S1x80.Idx) :
    iblk (F := Ideal) m c 11 t y
      = m ((c : Thread nD τ).loc main_arg11) (ValueIdx.ix1 (n := 80) (y 1)) := by
  show V m c main_v12 (((cfg0.win 11).blk t).view.emb y) = _
  rw [wholePlace11, staged11]
  refine shapeCast_apply _ shapeCasts_S80_S1x80 y (ValueIdx.ix1 (n := 80) (y 1)) ?_
  rw [Shape.rowMajor_val_one, Shape.rowMajor_val_two]
  show (y 1).val = (y 0).val * 80 + (y 1).val
  have h0 : (y 0).val < 1 := (y 0).isLt
  omega

/-! ### Input 12: the second cell's hidden bias -/

/-- Its block index is `0` on both axes at every point (checked at each of the 500 points). -/
theorem wholeIndex12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)

/-- So an entry of the block sits at the same place in the array. -/
theorem wholePlace12 (t : Fin cfg0.N) (y : S1x80.Idx) : ((cfg0.win 12).blk t).view.emb y = y := by
  obtain ⟨e0, e1⟩ := wholeIndex12 t
  funext a; apply Fin.ext
  match a with
  | ⟨0, _⟩ => show win0_12.index t (0 : Fin 2) * 1 + 1 * (y 0).val = (y 0).val; rw [e0]; omega
  | ⟨1, _⟩ => show win0_12.index t (1 : Fin 2) * 80 + 1 * (y 1).val = (y 1).val; rw [e1]; omega

/-- The array the region finds: the argument with a unit axis added in front. -/
theorem staged12 (c : Dev nD) : (V m c main_v13 : FVec Ideal S1x80 .f32)
    = shapeCast S1x80 (m ((c : Thread nD τ).loc main_arg12) : S80.Idx → EReal) shapeCasts_S80_S1x80 := by
  dsimp only [Gen.V, Gen.hostOps0]
  after_results
  rfl

/-- The block, read at `(0, e)`, is the argument at `e`. -/
theorem blk12 (c : Dev nD) (t : Fin cfg0.N) (y : S1x80.Idx) :
    iblk (F := Ideal) m c 12 t y
      = m ((c : Thread nD τ).loc main_arg12) (ValueIdx.ix1 (n := 80) (y 1)) := by
  show V m c main_v13 (((cfg0.win 12).blk t).view.emb y) = _
  rw [wholePlace12, staged12]
  refine shapeCast_apply _ shapeCasts_S80_S1x80 y (ValueIdx.ix1 (n := 80) (y 1)) ?_
  rw [Shape.rowMajor_val_one, Shape.rowMajor_val_two]
  show (y 1).val = (y 0).val * 80 + (y 1).val
  have h0 : (y 0).val < 1 := (y 0).isLt
  omega

/-! ### Input 14: the output layer's bias -/

/-- Its block index is `0` on both axes at every point (checked at each of the 500 points). -/
theorem wholeIndex14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)

/-- So an entry of the block sits at the same place in the array. -/
theorem wholePlace14 (t : Fin cfg0.N) (y : S1x1.Idx) : ((cfg0.win 14).blk t).view.emb y = y := by
  obtain ⟨e0, e1⟩ := wholeIndex14 t
  funext a; apply Fin.ext
  match a with
  | ⟨0, _⟩ => show win0_14.index t (0 : Fin 2) * 1 + 1 * (y 0).val = (y 0).val; rw [e0]; omega
  | ⟨1, _⟩ => show win0_14.index t (1 : Fin 2) * 1 + 1 * (y 1).val = (y 1).val; rw [e1]; omega

/-- The array the region finds: the argument with a unit axis added in front. -/
theorem staged14 (c : Dev nD) : (V m c main_v14 : FVec Ideal S1x1 .f32)
    = shapeCast S1x1 (m ((c : Thread nD τ).loc main_arg14) : S1.Idx → EReal) shapeCasts_S1_S1x1 := by
  dsimp only [Gen.V, Gen.hostOps0]
  after_results
  rfl

/-- The block, read at `(0, e)`, is the argument at `e`. -/
theorem blk14 (c : Dev nD) (t : Fin cfg0.N) (y : S1x1.Idx) :
    iblk (F := Ideal) m c 14 t y
      = m ((c : Thread nD τ).loc main_arg14) (ValueIdx.ix1 (n := 1) (y 1)) := by
  show V m c main_v14 (((cfg0.win 14).blk t).view.emb y) = _
  rw [wholePlace14, staged14]
  refine shapeCast_apply _ shapeCasts_S1_S1x1 y (ValueIdx.ix1 (n := 1) (y 1)) ?_
  rw [Shape.rowMajor_val_one, Shape.rowMajor_val_two]
  show (y 1).val = (y 0).val * 1 + (y 1).val
  have h0 : (y 0).val < 1 := (y 0).isLt
  omega

end Cert.Lstm.Launch

end
-- ==== Proof.Assemble.lean ====
/-
  Each of the five results is written back block by block: grid point `t` writes rows `2000 t … 2000 t + 1999`, all
  columns, and the 500 blocks together are the whole array (row `r` lies in block `r / 2000`).  So if, at every point
  `t` and every entry `y` of the block, what the body leaves at `y` is `G` at row `2000 t + y 0`, column `y 1`, for
  ONE function `G` on the array's indices, then the array ends holding `G`.
-/
import proofs.«152592_j76364518523026_2_alg».proof.Proof.Rows
import proofs.«152592_j76364518523026_2_alg».proof.Proof.Gen.KernelIdeal.Value
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)

namespace Cert.Lstm.Launch

open Cert.KernelIdeal Cert.KernelIdeal.Gen

variable (m : (ℓ : Loc nD τ sig) → Buf (Elt Ideal) ℓ)

/-! ## Result window 15 -/

/-- Its block index at point `t` is `t` along the rows and `0` along the columns (checked at each of the 500 points). -/
theorem outBlockIndex15 : ∀ t : Fin cfg0.N, win0_15.index t (0 : Fin 2) = t.val ∧ win0_15.index t (1 : Fin 2) = 0 :=
  (by decide +kernel : ∀ t : Fin grid0.N, win0_15.index t (0 : Fin 2) = t.val ∧ win0_15.index t (1 : Fin 2) = 0)

/-- So entry `y` of the block written at point `t` lands at row `2000 t + y 0`, column `y 1`. -/
theorem outBlockPlace15 (t : Fin cfg0.N) (y : S2000x1.Idx) :
    ((cfg0.win 15).blk t).view.emb y = ValueIdx.ix2 (n0 := 1000000) (n1 := 1) (grow t (y 0)) (y 1) := by
  obtain ⟨e0, e1⟩ := outBlockIndex15 t
  funext a; apply Fin.ext
  match a with
  | ⟨0, _⟩ => show win0_15.index t (0 : Fin 2) * 2000 + 1 * (y 0).val = t.val * 2000 + (y 0).val; rw [e0]; omega
  | ⟨1, _⟩ => show win0_15.index t (1 : Fin 2) * 1 + 1 * (y 1).val = (y 1).val; rw [e1]; omega

/-- What point `t` writes back is block `t` of `G`, when the body's result at every entry is `G` at the entry's place. -/
theorem wrote15 (c : Dev nD) (G : S1000000x1.Idx → EReal)
    (h : ∀ (t : Fin cfg0.N) (y : S2000x1.Idx),
      out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y
        = G (ValueIdx.ix2 (n0 := 1000000) (n1 := 1) (grow t (y 0)) (y 1)))
    (t : Fin cfg0.N) :
    (dats m 0 c).flushed 15 t = ((cfg0.win 15).blk t).view.read (Elt Ideal) G := by
  rw [Value.flushed15]
  funext y
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y
    = G (((cfg0.win 15).blk t).view.emb y)
  rw [outBlockPlace15]
  exact h t y

/-- An index of the array is in point `t`'s block iff each coordinate is in the block's range on its axis. -/
theorem mem_outBlock15 (t : Fin cfg0.N) (i : S1000000x1.Idx) :
    i ∈ ((cfg0.win 15).blk t).view.set
      ↔ ∀ a : Fin 2, win0_15.index t a * S2000x1.size a ≤ (i a).val ∧ (i a).val < win0_15.index t a * S2000x1.size a + S2000x1.size a := by
  show i ∈ ((View.whole main_v15_0).slice (win0_15.rect t)).set ↔ _
  rw [View.set_slice_whole, Rect.mem_set_unit]
  exact Iff.rfl

/-- Every index of the array is in the block of the point its row falls to, and every point writes back. -/
theorem covered15 (i : S1000000x1.Idx) :
    ∃ t : Fin cfg0.N, (cfg0.win 15).flush t = true ∧ i ∈ ((cfg0.win 15).blk t).view.set := by
  have hi0 : (i 0).val < 1000000 := (i 0).isLt
  have hi1 : (i 1).val < 1 := (i 1).isLt
  have ht : (i 0).val / 2000 < cfg0.N := by rw [gridN]; omega
  obtain ⟨e0, e1⟩ := outBlockIndex15 ⟨(i 0).val / 2000, ht⟩
  have e0' : win0_15.index ⟨(i 0).val / 2000, ht⟩ (0 : Fin 2) = (i 0).val / 2000 := e0
  refine ⟨⟨(i 0).val / 2000, ht⟩, flush0_15 _, ?_⟩
  rw [mem_outBlock15]
  intro a
  match a with
  | ⟨0, _⟩ =>
    show win0_15.index ⟨(i 0).val / 2000, ht⟩ (0 : Fin 2) * 2000 ≤ (i 0).val
      ∧ (i 0).val < win0_15.index ⟨(i 0).val / 2000, ht⟩ (0 : Fin 2) * 2000 + 2000
    rw [e0']; omega
  | ⟨1, _⟩ =>
    show win0_15.index ⟨(i 0).val / 2000, ht⟩ (1 : Fin 2) * 1 ≤ (i 1).val
      ∧ (i 1).val < win0_15.index ⟨(i 0).val / 2000, ht⟩ (1 : Fin 2) * 1 + 1
    rw [e1]; omega

/-- The array after the run is `G`. -/
theorem final15 (c : Dev nD) (G : S1000000x1.Idx → EReal)
    (h : ∀ (t : Fin cfg0.N) (y : S2000x1.Idx),
      out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y
        = G (ValueIdx.ix2 (n0 := 1000000) (n1 := 1) (grow t (y 0)) (y 1))) :
    (dats m 0 c).arrAt 15 cfg0.N = G :=
  (dats m 0 c).arrAt_eq_of_cover 15 G (fun t _ => wrote15 m c G h t) covered15

/-! ## Result window 16 -/

/-- Its block index at point `t` is `t` along the rows and `0` along the columns (checked at each of the 500 points). -/
theorem outBlockIndex16 : ∀ t : Fin cfg0.N, win0_16.index t (0 : Fin 2) = t.val ∧ win0_16.index t (1 : Fin 2) = 0 :=
  (by decide +kernel : ∀ t : Fin grid0.N, win0_16.index t (0 : Fin 2) = t.val ∧ win0_16.index t (1 : Fin 2) = 0)

/-- So entry `y` of the block written at point `t` lands at row `2000 t + y 0`, column `y 1`. -/
theorem outBlockPlace16 (t : Fin cfg0.N) (y : S2000x20.Idx) :
    ((cfg0.win 16).blk t).view.emb y = ValueIdx.ix2 (n0 := 1000000) (n1 := 20) (grow t (y 0)) (y 1) := by
  obtain ⟨e0, e1⟩ := outBlockIndex16 t
  funext a; apply Fin.ext
  match a with
  | ⟨0, _⟩ => show win0_16.index t (0 : Fin 2) * 2000 + 1 * (y 0).val = t.val * 2000 + (y 0).val; rw [e0]; omega
  | ⟨1, _⟩ => show win0_16.index t (1 : Fin 2) * 20 + 1 * (y 1).val = (y 1).val; rw [e1]; omega

/-- What point `t` writes back is block `t` of `G`, when the body's result at every entry is `G` at the entry's place. -/
theorem wrote16 (c : Dev nD) (G : S1000000x20.Idx → EReal)
    (h : ∀ (t : Fin cfg0.N) (y : S2000x20.Idx),
      out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y
        = G (ValueIdx.ix2 (n0 := 1000000) (n1 := 20) (grow t (y 0)) (y 1)))
    (t : Fin cfg0.N) :
    (dats m 0 c).flushed 16 t = ((cfg0.win 16).blk t).view.read (Elt Ideal) G := by
  rw [Value.flushed16]
  funext y
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y
    = G (((cfg0.win 16).blk t).view.emb y)
  rw [outBlockPlace16]
  exact h t y

/-- An index of the array is in point `t`'s block iff each coordinate is in the block's range on its axis. -/
theorem mem_outBlock16 (t : Fin cfg0.N) (i : S1000000x20.Idx) :
    i ∈ ((cfg0.win 16).blk t).view.set
      ↔ ∀ a : Fin 2, win0_16.index t a * S2000x20.size a ≤ (i a).val ∧ (i a).val < win0_16.index t a * S2000x20.size a + S2000x20.size a := by
  show i ∈ ((View.whole main_v15_1).slice (win0_16.rect t)).set ↔ _
  rw [View.set_slice_whole, Rect.mem_set_unit]
  exact Iff.rfl

/-- Every index of the array is in the block of the point its row falls to, and every point writes back. -/
theorem covered16 (i : S1000000x20.Idx) :
    ∃ t : Fin cfg0.N, (cfg0.win 16).flush t = true ∧ i ∈ ((cfg0.win 16).blk t).view.set := by
  have hi0 : (i 0).val < 1000000 := (i 0).isLt
  have hi1 : (i 1).val < 20 := (i 1).isLt
  have ht : (i 0).val / 2000 < cfg0.N := by rw [gridN]; omega
  obtain ⟨e0, e1⟩ := outBlockIndex16 ⟨(i 0).val / 2000, ht⟩
  have e0' : win0_16.index ⟨(i 0).val / 2000, ht⟩ (0 : Fin 2) = (i 0).val / 2000 := e0
  refine ⟨⟨(i 0).val / 2000, ht⟩, flush0_16 _, ?_⟩
  rw [mem_outBlock16]
  intro a
  match a with
  | ⟨0, _⟩ =>
    show win0_16.index ⟨(i 0).val / 2000, ht⟩ (0 : Fin 2) * 2000 ≤ (i 0).val
      ∧ (i 0).val < win0_16.index ⟨(i 0).val / 2000, ht⟩ (0 : Fin 2) * 2000 + 2000
    rw [e0']; omega
  | ⟨1, _⟩ =>
    show win0_16.index ⟨(i 0).val / 2000, ht⟩ (1 : Fin 2) * 20 ≤ (i 1).val
      ∧ (i 1).val < win0_16.index ⟨(i 0).val / 2000, ht⟩ (1 : Fin 2) * 20 + 20
    rw [e1]; omega

/-- The array after the run is `G`. -/
theorem final16 (c : Dev nD) (G : S1000000x20.Idx → EReal)
    (h : ∀ (t : Fin cfg0.N) (y : S2000x20.Idx),
      out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y
        = G (ValueIdx.ix2 (n0 := 1000000) (n1 := 20) (grow t (y 0)) (y 1))) :
    (dats m 0 c).arrAt 16 cfg0.N = G :=
  (dats m 0 c).arrAt_eq_of_cover 16 G (fun t _ => wrote16 m c G h t) covered16

/-! ## Result window 17 -/

/-- Its block index at point `t` is `t` along the rows and `0` along the columns (checked at each of the 500 points). -/
theorem outBlockIndex17 : ∀ t : Fin cfg0.N, win0_17.index t (0 : Fin 2) = t.val ∧ win0_17.index t (1 : Fin 2) = 0 :=
  (by decide +kernel : ∀ t : Fin grid0.N, win0_17.index t (0 : Fin 2) = t.val ∧ win0_17.index t (1 : Fin 2) = 0)

/-- So entry `y` of the block written at point `t` lands at row `2000 t + y 0`, column `y 1`. -/
theorem outBlockPlace17 (t : Fin cfg0.N) (y : S2000x20.Idx) :
    ((cfg0.win 17).blk t).view.emb y = ValueIdx.ix2 (n0 := 1000000) (n1 := 20) (grow t (y 0)) (y 1) := by
  obtain ⟨e0, e1⟩ := outBlockIndex17 t
  funext a; apply Fin.ext
  match a with
  | ⟨0, _⟩ => show win0_17.index t (0 : Fin 2) * 2000 + 1 * (y 0).val = t.val * 2000 + (y 0).val; rw [e0]; omega
  | ⟨1, _⟩ => show win0_17.index t (1 : Fin 2) * 20 + 1 * (y 1).val = (y 1).val; rw [e1]; omega

/-- What point `t` writes back is block `t` of `G`, when the body's result at every entry is `G` at the entry's place. -/
theorem wrote17 (c : Dev nD) (G : S1000000x20.Idx → EReal)
    (h : ∀ (t : Fin cfg0.N) (y : S2000x20.Idx),
      out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y
        = G (ValueIdx.ix2 (n0 := 1000000) (n1 := 20) (grow t (y 0)) (y 1)))
    (t : Fin cfg0.N) :
    (dats m 0 c).flushed 17 t = ((cfg0.win 17).blk t).view.read (Elt Ideal) G := by
  rw [Value.flushed17]
  funext y
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y
    = G (((cfg0.win 17).blk t).view.emb y)
  rw [outBlockPlace17]
  exact h t y

/-- An index of the array is in point `t`'s block iff each coordinate is in the block's range on its axis. -/
theorem mem_outBlock17 (t : Fin cfg0.N) (i : S1000000x20.Idx) :
    i ∈ ((cfg0.win 17).blk t).view.set
      ↔ ∀ a : Fin 2, win0_17.index t a * S2000x20.size a ≤ (i a).val ∧ (i a).val < win0_17.index t a * S2000x20.size a + S2000x20.size a := by
  show i ∈ ((View.whole main_v15_2).slice (win0_17.rect t)).set ↔ _
  rw [View.set_slice_whole, Rect.mem_set_unit]
  exact Iff.rfl

/-- Every index of the array is in the block of the point its row falls to, and every point writes back. -/
theorem covered17 (i : S1000000x20.Idx) :
    ∃ t : Fin cfg0.N, (cfg0.win 17).flush t = true ∧ i ∈ ((cfg0.win 17).blk t).view.set := by
  have hi0 : (i 0).val < 1000000 := (i 0).isLt
  have hi1 : (i 1).val < 20 := (i 1).isLt
  have ht : (i 0).val / 2000 < cfg0.N := by rw [gridN]; omega
  obtain ⟨e0, e1⟩ := outBlockIndex17 ⟨(i 0).val / 2000, ht⟩
  have e0' : win0_17.index ⟨(i 0).val / 2000, ht⟩ (0 : Fin 2) = (i 0).val / 2000 := e0
  refine ⟨⟨(i 0).val / 2000, ht⟩, flush0_17 _, ?_⟩
  rw [mem_outBlock17]
  intro a
  match a with
  | ⟨0, _⟩ =>
    show win0_17.index ⟨(i 0).val / 2000, ht⟩ (0 : Fin 2) * 2000 ≤ (i 0).val
      ∧ (i 0).val < win0_17.index ⟨(i 0).val / 2000, ht⟩ (0 : Fin 2) * 2000 + 2000
    rw [e0']; omega
  | ⟨1, _⟩ =>
    show win0_17.index ⟨(i 0).val / 2000, ht⟩ (1 : Fin 2) * 20 ≤ (i 1).val
      ∧ (i 1).val < win0_17.index ⟨(i 0).val / 2000, ht⟩ (1 : Fin 2) * 20 + 20
    rw [e1]; omega

/-- The array after the run is `G`. -/
theorem final17 (c : Dev nD) (G : S1000000x20.Idx → EReal)
    (h : ∀ (t : Fin cfg0.N) (y : S2000x20.Idx),
      out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y
        = G (ValueIdx.ix2 (n0 := 1000000) (n1 := 20) (grow t (y 0)) (y 1))) :
    (dats m 0 c).arrAt 17 cfg0.N = G :=
  (dats m 0 c).arrAt_eq_of_cover 17 G (fun t _ => wrote17 m c G h t) covered17

/-! ## Result window 18 -/

/-- Its block index at point `t` is `t` along the rows and `0` along the columns (checked at each of the 500 points). -/
theorem outBlockIndex18 : ∀ t : Fin cfg0.N, win0_18.index t (0 : Fin 2) = t.val ∧ win0_18.index t (1 : Fin 2) = 0 :=
  (by decide +kernel : ∀ t : Fin grid0.N, win0_18.index t (0 : Fin 2) = t.val ∧ win0_18.index t (1 : Fin 2) = 0)

/-- So entry `y` of the block written at point `t` lands at row `2000 t + y 0`, column `y 1`. -/
theorem outBlockPlace18 (t : Fin cfg0.N) (y : S2000x20.Idx) :
    ((cfg0.win 18).blk t).view.emb y = ValueIdx.ix2 (n0 := 1000000) (n1 := 20) (grow t (y 0)) (y 1) := by
  obtain ⟨e0, e1⟩ := outBlockIndex18 t
  funext a; apply Fin.ext
  match a with
  | ⟨0, _⟩ => show win0_18.index t (0 : Fin 2) * 2000 + 1 * (y 0).val = t.val * 2000 + (y 0).val; rw [e0]; omega
  | ⟨1, _⟩ => show win0_18.index t (1 : Fin 2) * 20 + 1 * (y 1).val = (y 1).val; rw [e1]; omega

/-- What point `t` writes back is block `t` of `G`, when the body's result at every entry is `G` at the entry's place. -/
theorem wrote18 (c : Dev nD) (G : S1000000x20.Idx → EReal)
    (h : ∀ (t : Fin cfg0.N) (y : S2000x20.Idx),
      out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y
        = G (ValueIdx.ix2 (n0 := 1000000) (n1 := 20) (grow t (y 0)) (y 1)))
    (t : Fin cfg0.N) :
    (dats m 0 c).flushed 18 t = ((cfg0.win 18).blk t).view.read (Elt Ideal) G := by
  rw [Value.flushed18]
  funext y
  show out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y
    = G (((cfg0.win 18).blk t).view.emb y)
  rw [outBlockPlace18]
  exact h t y

/-- An index of the array is in point `t`'s block iff each coordinate is in the block's range on its axis. -/
theorem mem_outBlock18 (t : Fin cfg0.N) (i : S1000000x20.Idx) :
    i ∈ ((cfg0.win 18).blk t).view.set
      ↔ ∀ a : Fin 2, win0_18.index t a * S2000x20.size a ≤ (i a).val ∧ (i a).val < win0_18.index t a * S2000x20.size a + S2000x20.size a := by
  show i ∈ ((View.whole main_v15_3).slice (win0_18.rect t)).set ↔ _
  rw [View.set_slice_whole, Rect.mem_set_unit]
  exact Iff.rfl

/-- Every index of the array is in the block of the point its row falls to, and every point writes back. -/
theorem covered18 (i : S1000000x20.Idx) :
    ∃ t : Fin cfg0.N, (cfg0.win 18).flush t = true ∧ i ∈ ((cfg0.win 18).blk t).view.set := by
  have hi0 : (i 0).val < 1000000 := (i 0).isLt
  have hi1 : (i 1).val < 20 := (i 1).isLt
  have ht : (i 0).val / 2000 < cfg0.N := by rw [gridN]; omega
  obtain ⟨e0, e1⟩ := outBlockIndex18 ⟨(i 0).val / 2000, ht⟩
  have e0' : win0_18.index ⟨(i 0).val / 2000, ht⟩ (0 : Fin 2) = (i 0).val / 2000 := e0
  refine ⟨⟨(i 0).val / 2000, ht⟩, flush0_18 _, ?_⟩
  rw [mem_outBlock18]
  intro a
  match a with
  | ⟨0, _⟩ =>
    show win0_18.index ⟨(i 0).val / 2000, ht⟩ (0 : Fin 2) * 2000 ≤ (i 0).val
      ∧ (i 0).val < win0_18.index ⟨(i 0).val / 2000, ht⟩ (0 : Fin 2) * 2000 + 2000
    rw [e0']; omega
  | ⟨1, _⟩ =>
    show win0_18.index ⟨(i 0).val / 2000, ht⟩ (1 : Fin 2) * 20 ≤ (i 1).val
      ∧ (i 1).val < win0_18.index ⟨(i 0).val / 2000, ht⟩ (1 : Fin 2) * 20 + 20
    rw [e1]; omega

/-- The array after the run is `G`. -/
theorem final18 (c : Dev nD) (G : S1000000x20.Idx → EReal)
    (h : ∀ (t : Fin cfg0.N) (y : S2000x20.Idx),
      out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y
        = G (ValueIdx.ix2 (n0 := 1000000) (n1 := 20) (grow t (y 0)) (y 1))) :
    (dats m 0 c).arrAt 18 cfg0.N = G :=
  (dats m 0 c).arrAt_eq_of_cover 18 G (fun t _ => wrote18 m c G h t) covered18

/-! ## Result window 19 -/

/-- Its block index at point `t` is `t` along the rows and `0` along the columns (checked at each of the 500 points). -/
theorem outBlockIndex19 : ∀ t : Fin cfg0.N, win0_19.index t (0 : Fin 2) = t.val ∧ win0_19.index t (1 : Fin 2) = 0 :=
  (by decide +kernel : ∀ t : Fin grid0.N, win0_19.index t (0 : Fin 2) = t.val ∧ win0_19.index t (1 : Fin 2) = 0)

/-- So entry `y` of the block written at point `t` lands at row `2000 t + y 0`, column `y 1`. -/
theorem outBlockPlace19 (t : Fin cfg0.N) (y : S2000x20.Idx) :
    ((cfg0.win 19).blk t).view.emb y = ValueIdx.ix2 (n0 := 1000000) (n1 := 20) (grow t (y 0)) (y 1) := by
  obtain ⟨e0, e1⟩ := outBlockIndex19 t
  funext a; apply Fin.ext
  match a with
  | ⟨0, _⟩ => show win0_19.index t (0 : Fin 2) * 2000 + 1 * (y 0).val = t.val * 2000 + (y 0).val; rw [e0]; omega
  | ⟨1, _⟩ => show win0_19.index t (1 : Fin 2) * 20 + 1 * (y 1).val = (y 1).val; rw [e1]; omega

/-- What point `t` writes back is block `t` of `G`, when the body's result at every entry is `G` at the entry's place. -/
theorem wrote19 (c : Dev nD) (G : S1000000x20.Idx → EReal)
    (h : ∀ (t : Fin cfg0.N) (y : S2000x20.Idx),
      out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y
        = G (ValueIdx.ix2 (n0 := 1000000) (n1 := 20) (grow t (y 0)) (y 1)))
    (t : Fin cfg0.N) :
    (dats m 0 c).flushed 19 t = ((cfg0.win 19).blk t).view.read (Elt Ideal) G := by
  rw [Value.flushed19]
  funext y
  show out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y
    = G (((cfg0.win 19).blk t).view.emb y)
  rw [outBlockPlace19]
  exact h t y

/-- An index of the array is in point `t`'s block iff each coordinate is in the block's range on its axis. -/
theorem mem_outBlock19 (t : Fin cfg0.N) (i : S1000000x20.Idx) :
    i ∈ ((cfg0.win 19).blk t).view.set
      ↔ ∀ a : Fin 2, win0_19.index t a * S2000x20.size a ≤ (i a).val ∧ (i a).val < win0_19.index t a * S2000x20.size a + S2000x20.size a := by
  show i ∈ ((View.whole main_v15_4).slice (win0_19.rect t)).set ↔ _
  rw [View.set_slice_whole, Rect.mem_set_unit]
  exact Iff.rfl

/-- Every index of the array is in the block of the point its row falls to, and every point writes back. -/
theorem covered19 (i : S1000000x20.Idx) :
    ∃ t : Fin cfg0.N, (cfg0.win 19).flush t = true ∧ i ∈ ((cfg0.win 19).blk t).view.set := by
  have hi0 : (i 0).val < 1000000 := (i 0).isLt
  have hi1 : (i 1).val < 20 := (i 1).isLt
  have ht : (i 0).val / 2000 < cfg0.N := by rw [gridN]; omega
  obtain ⟨e0, e1⟩ := outBlockIndex19 ⟨(i 0).val / 2000, ht⟩
  have e0' : win0_19.index ⟨(i 0).val / 2000, ht⟩ (0 : Fin 2) = (i 0).val / 2000 := e0
  refine ⟨⟨(i 0).val / 2000, ht⟩, flush0_19 _, ?_⟩
  rw [mem_outBlock19]
  intro a
  match a with
  | ⟨0, _⟩ =>
    show win0_19.index ⟨(i 0).val / 2000, ht⟩ (0 : Fin 2) * 2000 ≤ (i 0).val
      ∧ (i 0).val < win0_19.index ⟨(i 0).val / 2000, ht⟩ (0 : Fin 2) * 2000 + 2000
    rw [e0']; omega
  | ⟨1, _⟩ =>
    show win0_19.index ⟨(i 0).val / 2000, ht⟩ (1 : Fin 2) * 20 ≤ (i 1).val
      ∧ (i 1).val < win0_19.index ⟨(i 0).val / 2000, ht⟩ (1 : Fin 2) * 20 + 20
    rw [e1]; omega

/-- The array after the run is `G`. -/
theorem final19 (c : Dev nD) (G : S1000000x20.Idx → EReal)
    (h : ∀ (t : Fin cfg0.N) (y : S2000x20.Idx),
      out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y
        = G (ValueIdx.ix2 (n0 := 1000000) (n1 := 20) (grow t (y 0)) (y 1))) :
    (dats m 0 c).arrAt 19 cfg0.N = G :=
  (dats m 0 c).arrAt_eq_of_cover 19 G (fun t _ => wrote19 m c G h t) covered19

end Cert.Lstm.Launch

end
-- ==== Proof.KernelValue.lean ====
/-
  The kernel's five result arrays are the specification's, over the argument arrays.

  Grid point `t` works on rows `2000 t .. 2000 t + 1999`: row `r` of its blocks of the five per-row arrays is row
  `2000 t + r` of the arrays, and its weight and bias blocks are the whole (transposed, respectively re-laid) weight
  and bias arrays at every point.  So the specification's row functions of the blocks at `t`, on block row `r`, are
  the specification's row functions of the arrays on row `2000 t + r`; what each point leaves in an output buffer is
  therefore the block of the specification's result array it is about to write back, and the 500 blocks tile each
  result array.
-/
import proofs.«152592_j76364518523026_2_alg».proof.Proof.Gen.KernelIdeal.Value
import proofs.«152592_j76364518523026_2_alg».proof.Proof.BodyBlocks
import proofs.«152592_j76364518523026_2_alg».proof.Proof.Blocks
import proofs.«152592_j76364518523026_2_alg».proof.Proof.Resident
import proofs.«152592_j76364518523026_2_alg».proof.Proof.Assemble

noncomputable section

open scoped BigOperators

open Idealize.ShloMosaic Idealize.ShloMosaic.TcCoe Idealize.SL.Sem

namespace Cert.Lstm.Kernel

open Cert.KernelIdeal Cert.KernelIdeal.Gen Cert.Lstm Cert.Lstm.Launch Idealize.ShloMosaic.ValueIdx

variable (m : (ℓ : Loc nD τ sig) → Buf (Elt Ideal) ℓ) (c : Dev nD)

/-- The fifteen argument arrays as device `c` holds them. -/
def args : Args where
  inp := m ((c : Thread nD τ).loc main_arg0)
  h0 := m ((c : Thread nD τ).loc main_arg1)
  h1 := m ((c : Thread nD τ).loc main_arg2)
  c0 := m ((c : Thread nD τ).loc main_arg3)
  c1 := m ((c : Thread nD τ).loc main_arg4)
  Wih1 := m ((c : Thread nD τ).loc main_arg5)
  Whh1 := m ((c : Thread nD τ).loc main_arg6)
  bih1 := m ((c : Thread nD τ).loc main_arg7)
  bhh1 := m ((c : Thread nD τ).loc main_arg8)
  Wih2 := m ((c : Thread nD τ).loc main_arg9)
  Whh2 := m ((c : Thread nD τ).loc main_arg10)
  bih2 := m ((c : Thread nD τ).loc main_arg11)
  bhh2 := m ((c : Thread nD τ).loc main_arg12)
  Wout := m ((c : Thread nD τ).loc main_arg13)
  bout := m ((c : Thread nD τ).loc main_arg14)

/-- The fifteen input blocks of grid point `t`. -/
def blocks (t : Fin cfg0.N) : Body.Blocks where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t

variable (t : Fin cfg0.N) (r : Fin 2000)

/-! ## Block rows are array rows -/

theorem gat_eq : Body.gatB (blocks m c t) r = g1 (args m c) (grow t r) := by
  have h0 : (blocks m c t).x0 (ix2 r (0 : Fin 1)) = (args m c).inp (ix2 (grow t r) (0 : Fin 1)) := blk0 m c t (ix2 r (0 : Fin 1))
  have h5 : (fun (e : Fin 80) (k : Fin 2) => (blocks m c t).x5 (ix2 k e)) = mat (args m c).Wih1 :=
    funext fun e => funext fun k => blk5 m c t (ix2 k e)
  have h7 : (fun e : Fin 80 => (blocks m c t).x7 (ix2 (0 : Fin 1) e)) = vec (args m c).bih1 :=
    funext fun e => blk7 m c t (ix2 (0 : Fin 1) e)
  have h1 : (fun k : Fin 20 => (blocks m c t).x1 (ix2 r k)) = row (args m c).h0 (grow t r) :=
    funext fun k => blk1 m c t (ix2 r k)
  have h6 : (fun (e : Fin 80) (k : Fin 20) => (blocks m c t).x6 (ix2 k e)) = mat (args m c).Whh1 :=
    funext fun e => funext fun k => blk6 m c t (ix2 k e)
  have h8 : (fun e : Fin 80 => (blocks m c t).x8 (ix2 (0 : Fin 1) e)) = vec (args m c).bhh1 :=
    funext fun e => blk8 m c t (ix2 (0 : Fin 1) e)
  unfold Body.gatB g1
  rw [h0, h5, h7, h1, h6, h8]

theorem row_c0 : (fun j : Fin 20 => (blocks m c t).x3 (ix2 r j)) = row (args m c).c0 (grow t r) :=
  funext fun j => blk3 m c t (ix2 r j)

theorem cel_eq : Body.celB (blocks m c t) r = c0n (args m c) (grow t r) := by
  unfold Body.celB c0n
  rw [gat_eq, row_c0]

theorem hid_eq : Body.hidB (blocks m c t) r = h0n (args m c) (grow t r) := by
  unfold Body.hidB h0n
  rw [gat_eq, row_c0]

theorem gat2_eq : Body.gat2B (blocks m c t) r = g2 (args m c) (grow t r) := by
  have h9 : (fun (e : Fin 80) (k : Fin 20) => (blocks m c t).x9 (ix2 k e)) = mat (args m c).Wih2 :=
    funext fun e => funext fun k => blk9 m c t (ix2 k e)
  have h11 : (fun e : Fin 80 => (blocks m c t).x11 (ix2 (0 : Fin 1) e)) = vec (args m c).bih2 :=
    funext fun e => blk11 m c t (ix2 (0 : Fin 1) e)
  have h2 : (fun k : Fin 20 => (blocks m c t).x2 (ix2 r k)) = row (args m c).h1 (grow t r) :=
    funext fun k => blk2 m c t (ix2 r k)
  have h10 : (fun (e : Fin 80) (k : Fin 20) => (blocks m c t).x10 (ix2 k e)) = mat (args m c).Whh2 :=
    funext fun e => funext fun k => blk10 m c t (ix2 k e)
  have h12 : (fun e : Fin 80 => (blocks m c t).x12 (ix2 (0 : Fin 1) e)) = vec (args m c).bhh2 :=
    funext fun e => blk12 m c t (ix2 (0 : Fin 1) e)
  unfold Body.gat2B g2
  rw [hid_eq, h9, h11, h2, h10, h12]

theorem row_c1 : (fun j : Fin 20 => (blocks m c t).x4 (ix2 r j)) = row (args m c).c1 (grow t r) :=
  funext fun j => blk4 m c t (ix2 r j)

theorem cel2_eq : Body.cel2B (blocks m c t) r = c1n (args m c) (grow t r) := by
  unfold Body.cel2B c1n
  rw [gat2_eq, row_c1]

theorem hid2_eq : Body.hid2B (blocks m c t) r = h1n (args m c) (grow t r) := by
  unfold Body.hid2B h1n
  rw [gat2_eq, row_c1]

theorem out_eq : Body.outB (blocks m c t) r = outv (args m c) (grow t r) := by
  have h13 : ∀ k : Fin 20, (blocks m c t).x13 (ix2 k (0 : Fin 1)) = (args m c).Wout (ix2 (0 : Fin 1) k) :=
    fun k => blk13 m c t (ix2 k (0 : Fin 1))
  have h14 : (blocks m c t).x14 (ix2 (0 : Fin 1) (0 : Fin 1)) = (args m c).bout (ix1 (0 : Fin 1)) :=
    blk14 m c t (ix2 (0 : Fin 1) (0 : Fin 1))
  unfold Body.outB outv
  rw [hid2_eq, h14]
  exact congrArg (· + (args m c).bout (ix1 (0 : Fin 1)))
    (Finset.sum_congr rfl fun k _ => congrArg (h1n (args m c) (grow t r) k * ·) (h13 k))

/-! ## What a grid point leaves in each output buffer, over its own blocks

The body lemmas are stated for any fifteen blocks; here they are taken at the blocks of point `t`. -/

theorem out15_vars (x0 : Vec Ideal S2000x1 .f32) (x1 x2 x3 x4 : Vec Ideal S2000x20 .f32) (x5 : Vec Ideal S2x80 .bf16) (x6 : Vec Ideal S20x80 .bf16)
    (x7 x8 : Vec Ideal S1x80 .f32) (x9 x10 : Vec Ideal S20x80 .bf16) (x11 x12 : Vec Ideal S1x80 .f32) (x13 : Vec Ideal S20x1 .bf16)
    (x14 : Vec Ideal S1x1 .f32) (r : Fin 2000) (z : Fin 1) :
    out0_15 (F := Ideal) x0 x1 x2 x3 x4 x5 x6 x7 x8 x9 x10 x11 x12 x13 x14 (ix2 r z) = Body.outB ⟨x0, x1, x2, x3, x4, x5, x6, x7, x8, x9, x10, x11, x12, x13, x14⟩ r :=
  Body.out15_apply ⟨x0, x1, x2, x3, x4, x5, x6, x7, x8, x9, x10, x11, x12, x13, x14⟩ r z

theorem point15 (t : Fin cfg0.N) (r : Fin 2000) (z : Fin 1) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r z) = Body.outB (blocks m c t) r :=
  out15_vars (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r z

theorem out16_vars (x0 : Vec Ideal S2000x1 .f32) (x1 x2 x3 x4 : Vec Ideal S2000x20 .f32) (x5 : Vec Ideal S2x80 .bf16) (x6 : Vec Ideal S20x80 .bf16)
    (x7 x8 : Vec Ideal S1x80 .f32) (x9 x10 : Vec Ideal S20x80 .bf16) (x11 x12 : Vec Ideal S1x80 .f32) (x13 : Vec Ideal S20x1 .bf16)
    (x14 : Vec Ideal S1x1 .f32) (r : Fin 2000) (j : Fin 20) :
    out0_16 (F := Ideal) x0 x1 x2 x3 x4 x5 x6 x7 x8 x9 x10 x11 x12 x13 x14 (ix2 r j) = Body.hidB ⟨x0, x1, x2, x3, x4, x5, x6, x7, x8, x9, x10, x11, x12, x13, x14⟩ r j :=
  Body.out16_apply ⟨x0, x1, x2, x3, x4, x5, x6, x7, x8, x9, x10, x11, x12, x13, x14⟩ r j

theorem point16 (t : Fin cfg0.N) (r : Fin 2000) (j : Fin 20) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) = Body.hidB (blocks m c t) r j :=
  out16_vars (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r j

theorem out17_vars (x0 : Vec Ideal S2000x1 .f32) (x1 x2 x3 x4 : Vec Ideal S2000x20 .f32) (x5 : Vec Ideal S2x80 .bf16) (x6 : Vec Ideal S20x80 .bf16)
    (x7 x8 : Vec Ideal S1x80 .f32) (x9 x10 : Vec Ideal S20x80 .bf16) (x11 x12 : Vec Ideal S1x80 .f32) (x13 : Vec Ideal S20x1 .bf16)
    (x14 : Vec Ideal S1x1 .f32) (r : Fin 2000) (j : Fin 20) :
    out0_17 (F := Ideal) x0 x1 x2 x3 x4 x5 x6 x7 x8 x9 x10 x11 x12 x13 x14 (ix2 r j) = Body.hid2B ⟨x0, x1, x2, x3, x4, x5, x6, x7, x8, x9, x10, x11, x12, x13, x14⟩ r j :=
  Body.out17_apply ⟨x0, x1, x2, x3, x4, x5, x6, x7, x8, x9, x10, x11, x12, x13, x14⟩ r j

theorem point17 (t : Fin cfg0.N) (r : Fin 2000) (j : Fin 20) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) = Body.hid2B (blocks m c t) r j :=
  out17_vars (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r j

theorem out18_vars (x0 : Vec Ideal S2000x1 .f32) (x1 x2 x3 x4 : Vec Ideal S2000x20 .f32) (x5 : Vec Ideal S2x80 .bf16) (x6 : Vec Ideal S20x80 .bf16)
    (x7 x8 : Vec Ideal S1x80 .f32) (x9 x10 : Vec Ideal S20x80 .bf16) (x11 x12 : Vec Ideal S1x80 .f32) (x13 : Vec Ideal S20x1 .bf16)
    (x14 : Vec Ideal S1x1 .f32) (r : Fin 2000) (j : Fin 20) :
    out0_18 (F := Ideal) x0 x1 x2 x3 x4 x5 x6 x7 x8 x9 x10 x11 x12 x13 x14 (ix2 r j) = Body.celB ⟨x0, x1, x2, x3, x4, x5, x6, x7, x8, x9, x10, x11, x12, x13, x14⟩ r j :=
  Body.out18_apply ⟨x0, x1, x2, x3, x4, x5, x6, x7, x8, x9, x10, x11, x12, x13, x14⟩ r j

theorem point18 (t : Fin cfg0.N) (r : Fin 2000) (j : Fin 20) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) = Body.celB (blocks m c t) r j :=
  out18_vars (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r j

theorem out19_vars (x0 : Vec Ideal S2000x1 .f32) (x1 x2 x3 x4 : Vec Ideal S2000x20 .f32) (x5 : Vec Ideal S2x80 .bf16) (x6 : Vec Ideal S20x80 .bf16)
    (x7 x8 : Vec Ideal S1x80 .f32) (x9 x10 : Vec Ideal S20x80 .bf16) (x11 x12 : Vec Ideal S1x80 .f32) (x13 : Vec Ideal S20x1 .bf16)
    (x14 : Vec Ideal S1x1 .f32) (r : Fin 2000) (j : Fin 20) :
    out0_19 (F := Ideal) x0 x1 x2 x3 x4 x5 x6 x7 x8 x9 x10 x11 x12 x13 x14 (ix2 r j) = Body.cel2B ⟨x0, x1, x2, x3, x4, x5, x6, x7, x8, x9, x10, x11, x12, x13, x14⟩ r j :=
  Body.out19_apply ⟨x0, x1, x2, x3, x4, x5, x6, x7, x8, x9, x10, x11, x12, x13, x14⟩ r j

theorem point19 (t : Fin cfg0.N) (r : Fin 2000) (j : Fin 20) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r j) = Body.cel2B (blocks m c t) r j :=
  out19_vars (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r j

/-! ## The five result arrays after the run -/

theorem final_out : (dats m 0 c).arrAt 15 cfg0.N = out (args m c) :=
  final15 m c (out (args m c)) (fun t y => by
    obtain ⟨r, j, rfl⟩ : ∃ (r : Fin 2000) (j : Fin 1), y = ix2 r j := ⟨y 0, y 1, eq_ix2 y⟩
    exact (point15 m c t r j).trans (out_eq m c t r))

theorem final_hid0 : (dats m 0 c).arrAt 16 cfg0.N = hid0 (args m c) :=
  final16 m c (hid0 (args m c)) (fun t y => by
    obtain ⟨r, j, rfl⟩ : ∃ (r : Fin 2000) (j : Fin 20), y = ix2 r j := ⟨y 0, y 1, eq_ix2 y⟩
    exact (point16 m c t r j).trans (congrFun (hid_eq m c t r) j))

theorem final_hid1 : (dats m 0 c).arrAt 17 cfg0.N = hid1 (args m c) :=
  final17 m c (hid1 (args m c)) (fun t y => by
    obtain ⟨r, j, rfl⟩ : ∃ (r : Fin 2000) (j : Fin 20), y = ix2 r j := ⟨y 0, y 1, eq_ix2 y⟩
    exact (point17 m c t r j).trans (congrFun (hid2_eq m c t r) j))

theorem final_cel0 : (dats m 0 c).arrAt 18 cfg0.N = cel0 (args m c) :=
  final18 m c (cel0 (args m c)) (fun t y => by
    obtain ⟨r, j, rfl⟩ : ∃ (r : Fin 2000) (j : Fin 20), y = ix2 r j := ⟨y 0, y 1, eq_ix2 y⟩
    exact (point18 m c t r j).trans (congrFun (cel_eq m c t r) j))

theorem final_cel1 : (dats m 0 c).arrAt 19 cfg0.N = cel1 (args m c) :=
  final19 m c (cel1 (args m c)) (fun t y => by
    obtain ⟨r, j, rfl⟩ : ∃ (r : Fin 2000) (j : Fin 20), y = ix2 r j := ⟨y 0, y 1, eq_ix2 y⟩
    exact (point19 m c t r j).trans (congrFun (cel2_eq m c t r) j))

end Cert.Lstm.Kernel

end
-- ==== Proof.RefFeatures.lean ====
/-
  The reference program's feature stage, read at a row.

  From the gradient column `x` the reference forms, entry by entry, the bit `thr ≤ max x (-x)`, the two candidates
  `log (max x (-x) + eps) / 10` and `-1` of the first feature, the two candidates `sign x` and `scale * x` of the
  second, selects within each pair by that bit, and joins the two resulting columns side by side into an array with
  two columns.  Row `r` of the first column is `logMag` of the gradient entry of row `r`, row `r` of the second is
  `dir` of it, and entry `(r, k)` of the joined array is `feat` of it at `k`: column `0` falls in the first piece of
  the join, column `1` in the second, one place past the first piece's single column.
-/
import proofs.«152592_j76364518523026_2_alg».proof.Proof.Gen.ReferenceIdeal.Read
import proofs.«152592_j76364518523026_2_alg».proof.Proof.Spec
import proofs.«152592_j76364518523026_2_alg».proof.Proof.Literals

noncomputable section

open scoped BigOperators

namespace Cert.Lstm.Ref

open Cert.ReferenceIdeal Cert.ReferenceIdeal.Gen Cert.ReferenceIdeal.Read Idealize.ShloMosaic Idealize.ShloMosaic.ValueIdx

/-- First feature column: at every index it is `logMag` of the gradient entry there. -/
theorem logMag_at (x : S1000000x1.Idx → EReal) (i : S1000000x1.Idx) :
    val_main_v9 (F := Ideal) x i = logMag (x i) := by
  rw [val_main_v9_apply, val_main_v2_apply, val_main_v0_apply, val_main_v1_apply, val_main_cst_apply,
    val_main_v8_apply, val_main_v6_apply, val_main_v5_apply, val_main_v3_apply, val_main_v4_apply,
    val_main_cst_0_apply, val_main_v7_apply, val_main_cst_1_apply, val_main_call0_v1_apply,
    val_main_call0_v0_apply, val_main_cst_2_apply]
  rfl

/-- Second feature column: at every index it is `dir` of the gradient entry there. -/
theorem dir_at (x : S1000000x1.Idx → EReal) (i : S1000000x1.Idx) :
    val_main_v13 (F := Ideal) x i = dir (x i) := by
  rw [val_main_v13_apply, val_main_v2_apply, val_main_v0_apply, val_main_v1_apply, val_main_cst_apply,
    val_main_v10_apply, val_main_v12_apply, val_main_v11_apply, val_main_cst_3_apply]
  rfl

/-- Column `0` of the joined array falls in the first piece: it is the first feature column. -/
theorem feat_at0 (x : S1000000x1.Idx → EReal) (r : Fin 1000000) :
    val_main_v14 (F := Ideal) x (ix2 r (0 : Fin 2)) = logMag (x (ix2 r 0)) := by
  unfold val_main_v14
  refine (concatenate_pair_apply_left _ _ _ concatenates_S1000000x1_S1000000x1_S1000000x2_d1 _ rfl
    (ix2 r (0 : Fin 1)) ?_).trans (logMag_at x _)
  intro b
  match b with
  | ⟨0, _⟩ => rfl
  | ⟨1, _⟩ => rfl

/-- Column `1` of the joined array falls in the second piece, one place past the first piece's single column: it
    is the second feature column. -/
theorem feat_at1 (x : S1000000x1.Idx → EReal) (r : Fin 1000000) :
    val_main_v14 (F := Ideal) x (ix2 r (1 : Fin 2)) = dir (x (ix2 r 0)) := by
  unfold val_main_v14
  refine (concatenate_pair_apply_right _ _ _ concatenates_S1000000x1_S1000000x1_S1000000x2_d1 _ rfl rfl
    (ix2 r (0 : Fin 1)) ?_ ?_).trans (dir_at x _)
  · intro b hb
    match b, hb with
    | ⟨0, _⟩, _ => rfl
    | ⟨1, _⟩, hb => exact absurd rfl hb
  · rfl

/-- The joined array at `(r, k)` is the feature vector of row `r`'s gradient entry at `k`. -/
theorem feat_at (x : S1000000x1.Idx → EReal) (r : Fin 1000000) (k : Fin 2) :
    val_main_v14 (F := Ideal) x (ix2 r k) = feat (x (ix2 r 0)) k := by
  match k with
  | ⟨0, _⟩ => exact feat_at0 x r
  | ⟨1, _⟩ => exact feat_at1 x r

end Cert.Lstm.Ref

end
-- ==== Proof.RefCell1.lean ====
/-
  The reference program's first cell, read at a row and a column.

  The 80 pre-activations of row `r` are formed as a sum of four terms in this order: the product of the two
  features with the transposed input weights, the input bias, the product of the old hidden state with the
  transposed hidden weights, the hidden bias.  Entry `(r, e)` of a product with a transposed `[80, K]` matrix is
  `∑ k, left (r, k) * weights (e, k)`, and a bias broadcast over the rows is read at the column alone, so entry
  `(r, e)` is `g1 A r e`.  The four gate groups are the column ranges `[0, 20)`, `[20, 40)`, `[40, 60)`, `[60, 80)`
  of this array, i.e. columns `q0 j`, `q1 j`, `q2 j`, `q3 j`.  The reference spells the logistic function as
  `1 / (1 + exp (-x))` with the constant `1`, which is the definition of `Ideal.logistic`; with that, the new cell
  state at `(r, j)` is `cellC` and the new hidden state `cellH` of row `r`'s pre-activations and old cell state.
-/
import proofs.«152592_j76364518523026_2_alg».proof.Proof.Gen.ReferenceIdeal.Read
import proofs.«152592_j76364518523026_2_alg».proof.Proof.Spec
import proofs.«152592_j76364518523026_2_alg».proof.Proof.Literals
import proofs.«152592_j76364518523026_2_alg».proof.Proof.RefFeatures

noncomputable section

open scoped BigOperators

namespace Cert.Lstm.Ref

open Cert.ReferenceIdeal Cert.ReferenceIdeal.Gen Cert.ReferenceIdeal.Read Idealize.ShloMosaic Idealize.ShloMosaic.ValueIdx

/-- The logistic function as the reference spells it, with the constant `1` as its single-precision pattern. -/
theorem logistic_spelled (x : EReal) :
    Ideal.div (Ideal.ofBits .f32 0x3F800000#32) (Ideal.ofBits .f32 0x3F800000#32 + Ideal.exp (-x)) =
      Ideal.logistic x := by
  rw [Lit.one]; rfl

/-! ## Where each stage reads its operands, by coordinates -/

/-- Entry `(r, e)` of the feature product reads the features at `(r, k)` … -/
theorem lidx16 (r : Fin 1000000) (e : Fin 80) (k : Fin 2) : lidx_main_v16 (ix2 r e) k = ix2 r k :=
  funext fun a => by match a with | ⟨0, _⟩ => rfl | ⟨1, _⟩ => rfl
/-- … and the input weights at `(e, k)`. -/
theorem ridx16 (r : Fin 1000000) (e : Fin 80) (k : Fin 2) :
    idx_main_v15 (ridx_main_v16 (ix2 r e) k) = ix2 e k :=
  funext fun a => by match a with | ⟨0, _⟩ => rfl | ⟨1, _⟩ => rfl
/-- Entry `(r, e)` of the hidden product reads the hidden state at `(r, k)` … -/
theorem lidx21 (r : Fin 1000000) (e : Fin 80) (k : Fin 20) : lidx_main_v21 (ix2 r e) k = ix2 r k :=
  funext fun a => by match a with | ⟨0, _⟩ => rfl | ⟨1, _⟩ => rfl
/-- … and the hidden weights at `(e, k)`. -/
theorem ridx21 (r : Fin 1000000) (e : Fin 80) (k : Fin 20) :
    idx_main_v20 (ridx_main_v21 (ix2 r e) k) = ix2 e k :=
  funext fun a => by match a with | ⟨0, _⟩ => rfl | ⟨1, _⟩ => rfl
/-- The input bias broadcast over the rows is read at the column. -/
theorem bidx18 (r : Fin 1000000) (e : Fin 80) : idx_main_v17 (idx_main_v18 (ix2 r e)) = ix1 e :=
  funext fun a => by match a with | ⟨0, _⟩ => rfl
/-- The hidden bias broadcast over the rows is read at the column. -/
theorem bidx24 (r : Fin 1000000) (e : Fin 80) : idx_main_v23 (idx_main_v24 (ix2 r e)) = ix1 e :=
  funext fun a => by match a with | ⟨0, _⟩ => rfl
/-- The four column ranges of the pre-activations. -/
theorem sidx26 (r : Fin 1000000) (j : Fin 20) : idx_main_v26 (ix2 r j) = ix2 r (q0 j) :=
  funext fun a => by match a with | ⟨0, _⟩ => rfl | ⟨1, _⟩ => rfl
theorem sidx27 (r : Fin 1000000) (j : Fin 20) : idx_main_v27 (ix2 r j) = ix2 r (q1 j) :=
  funext fun a => by
    match a with
    | ⟨0, _⟩ => rfl
    | ⟨1, _⟩ => exact Fin.ext (Nat.add_comm 20 j.val)
theorem sidx28 (r : Fin 1000000) (j : Fin 20) : idx_main_v28 (ix2 r j) = ix2 r (q2 j) :=
  funext fun a => by
    match a with
    | ⟨0, _⟩ => rfl
    | ⟨1, _⟩ => exact Fin.ext (Nat.add_comm 40 j.val)
theorem sidx29 (r : Fin 1000000) (j : Fin 20) : idx_main_v29 (ix2 r j) = ix2 r (q3 j) :=
  funext fun a => by
    match a with
    | ⟨0, _⟩ => rfl
    | ⟨1, _⟩ => exact Fin.ext (Nat.add_comm 60 j.val)

/-! ## The pre-activations -/

/-- Entry `(r, e)` of the first cell's pre-activations. -/
theorem gates1_at (A : Args) (r : Fin 1000000) (e : Fin 80) :
    val_main_v25 (F := Ideal) A.inp A.h0 A.Wih1 A.Whh1 A.bih1 A.bhh1 (ix2 r e) = g1 A r e := by
  rw [val_main_v25_apply, val_main_v22_apply, val_main_v19_apply, val_main_v16_apply, val_main_v18_apply,
    val_main_v17_apply, val_main_v21_apply, val_main_v24_apply, val_main_v23_apply, bidx18, bidx24]
  have hs1 : ∀ k : Fin 2, val_main_v14 (F := Ideal) A.inp (lidx_main_v16 (ix2 r e) k) *
      val_main_v15 (F := Ideal) A.Wih1 (ridx_main_v16 (ix2 r e) k) =
        feat (A.inp (ix2 r 0)) k * mat A.Wih1 e k := fun k => by
    rw [lidx16, feat_at, val_main_v15_apply, ridx16]
    rfl
  have hs2 : ∀ k : Fin 20, A.h0 (lidx_main_v21 (ix2 r e) k) *
      val_main_v20 (F := Ideal) A.Whh1 (ridx_main_v21 (ix2 r e) k) = row A.h0 r k * mat A.Whh1 e k := fun k => by
    rw [lidx21, val_main_v20_apply, ridx21]
    rfl
  simp only [Ideal.addf_def, hs1, hs2]
  rfl

/-! ## The new cell state and hidden state -/

/-- The first cell's new cell state at `(r, j)`, over the pre-activations of row `r` as the reference holds them. -/
theorem cellC1_at (A : Args) (r : Fin 1000000) (j : Fin 20) :
    val_main_v51 (F := Ideal) A.inp A.h0 A.c0 A.Wih1 A.Whh1 A.bih1 A.bhh1 (ix2 r j) = c0n A r j := by
  rw [val_main_v51_apply, val_main_v49_apply, val_main_v41_apply, val_main_v40_apply, val_main_cst_7_apply,
    val_main_v39_apply, val_main_v38_apply, val_main_cst_6_apply, val_main_v37_apply, val_main_v36_apply,
    val_main_v27_apply, val_main_v50_apply, val_main_v35_apply, val_main_v34_apply, val_main_cst_5_apply,
    val_main_v33_apply, val_main_v32_apply, val_main_cst_4_apply, val_main_v31_apply, val_main_v30_apply,
    val_main_v26_apply, val_main_v42_apply, val_main_v28_apply, sidx26, sidx27, sidx28,
    gates1_at, gates1_at, gates1_at]
  simp only [Ideal.addf_def, Ideal.mulf_def, Ideal.hostDivf_def, Ideal.hostUnary_exp_def, Ideal.hostUnary_tanh_def,
    Ideal.hostNegf_def, Ideal.negf_def, Ideal.ofBits_def]
  rw [logistic_spelled, logistic_spelled]
  rfl

/-- The first cell's new hidden state at `(r, j)`. -/
theorem cellH1_at (A : Args) (r : Fin 1000000) (j : Fin 20) :
    val_main_v53 (F := Ideal) A.inp A.h0 A.c0 A.Wih1 A.Whh1 A.bih1 A.bhh1 (ix2 r j) = h0n A r j := by
  rw [val_main_v53_apply, val_main_v48_apply, val_main_v47_apply, val_main_cst_9_apply, val_main_v46_apply,
    val_main_v45_apply, val_main_cst_8_apply, val_main_v44_apply, val_main_v43_apply, val_main_v29_apply,
    val_main_v52_apply, cellC1_at, sidx29, gates1_at]
  simp only [Ideal.addf_def, Ideal.mulf_def, Ideal.hostDivf_def, Ideal.hostUnary_exp_def, Ideal.hostUnary_tanh_def,
    Ideal.hostNegf_def, Ideal.negf_def, Ideal.ofBits_def]
  rw [logistic_spelled]
  rfl

/-- The first cell's new cell state, as a whole array. -/
theorem ref_cel0 (A : Args) :
    val_main_v51 (F := Ideal) A.inp A.h0 A.c0 A.Wih1 A.Whh1 A.bih1 A.bhh1 = cel0 A := by
  funext i
  obtain ⟨r, j, rfl⟩ : ∃ (r : Fin 1000000) (j : Fin 20), i = ix2 r j := ⟨i 0, i 1, eq_ix2 i⟩
  exact cellC1_at A r j

/-- The first cell's new hidden state, as a whole array. -/
theorem ref_hid0 (A : Args) :
    val_main_v53 (F := Ideal) A.inp A.h0 A.c0 A.Wih1 A.Whh1 A.bih1 A.bhh1 = hid0 A := by
  funext i
  obtain ⟨r, j, rfl⟩ : ∃ (r : Fin 1000000) (j : Fin 20), i = ix2 r j := ⟨i 0, i 1, eq_ix2 i⟩
  exact cellH1_at A r j

end Cert.Lstm.Ref

end
-- ==== Proof.RefCell2.lean ====
/-
  The reference program's second cell, read at a row and a column.

  The second cell has the shape of the first: its 80 pre-activations of row `r` are the sum, in this order, of the
  product of its input with the transposed input weights, the input bias, the product of its old hidden state with
  the transposed hidden weights, and the hidden bias.  Its input is the first cell's new hidden state, so entry
  `(r, k)` of the left factor of the first product is `h0n A r k`, and entry `(r, e)` of the pre-activations is
  `g2 A r e`.  The gate groups are again the four column ranges of width 20, and the new cell state and hidden state
  at `(r, j)` are `cellC` and `cellH` of row `r`'s pre-activations and the second old cell state.
-/
import proofs.«152592_j76364518523026_2_alg».proof.Proof.Gen.ReferenceIdeal.Read
import proofs.«152592_j76364518523026_2_alg».proof.Proof.Spec
import proofs.«152592_j76364518523026_2_alg».proof.Proof.Literals
import proofs.«152592_j76364518523026_2_alg».proof.Proof.RefCell1

noncomputable section

open scoped BigOperators

namespace Cert.Lstm.Ref

open Cert.ReferenceIdeal Cert.ReferenceIdeal.Gen Cert.ReferenceIdeal.Read Idealize.ShloMosaic Idealize.ShloMosaic.ValueIdx

/-! ## Where each stage reads its operands, by coordinates -/

/-- Entry `(r, e)` of the input product reads the first cell's new hidden state at `(r, k)` … -/
theorem lidx55 (r : Fin 1000000) (e : Fin 80) (k : Fin 20) : lidx_main_v55 (ix2 r e) k = ix2 r k :=
  funext fun a => by match a with | ⟨0, _⟩ => rfl | ⟨1, _⟩ => rfl
/-- … and the input weights at `(e, k)`. -/
theorem ridx55 (r : Fin 1000000) (e : Fin 80) (k : Fin 20) :
    idx_main_v54 (ridx_main_v55 (ix2 r e) k) = ix2 e k :=
  funext fun a => by match a with | ⟨0, _⟩ => rfl | ⟨1, _⟩ => rfl
/-- Entry `(r, e)` of the hidden product reads the old hidden state at `(r, k)` … -/
theorem lidx60 (r : Fin 1000000) (e : Fin 80) (k : Fin 20) : lidx_main_v60 (ix2 r e) k = ix2 r k :=
  funext fun a => by match a with | ⟨0, _⟩ => rfl | ⟨1, _⟩ => rfl
/-- … and the hidden weights at `(e, k)`. -/
theorem ridx60 (r : Fin 1000000) (e : Fin 80) (k : Fin 20) :
    idx_main_v59 (ridx_main_v60 (ix2 r e) k) = ix2 e k :=
  funext fun a => by match a with | ⟨0, _⟩ => rfl | ⟨1, _⟩ => rfl
/-- The input bias broadcast over the rows is read at the column. -/
theorem bidx57 (r : Fin 1000000) (e : Fin 80) : idx_main_v56 (idx_main_v57 (ix2 r e)) = ix1 e :=
  funext fun a => by match a with | ⟨0, _⟩ => rfl
/-- The hidden bias broadcast over the rows is read at the column. -/
theorem bidx63 (r : Fin 1000000) (e : Fin 80) : idx_main_v62 (idx_main_v63 (ix2 r e)) = ix1 e :=
  funext fun a => by match a with | ⟨0, _⟩ => rfl
/-- The four column ranges of the pre-activations. -/
theorem sidx65 (r : Fin 1000000) (j : Fin 20) : idx_main_v65 (ix2 r j) = ix2 r (q0 j) :=
  funext fun a => by match a with | ⟨0, _⟩ => rfl | ⟨1, _⟩ => rfl
theorem sidx66 (r : Fin 1000000) (j : Fin 20) : idx_main_v66 (ix2 r j) = ix2 r (q1 j) :=
  funext fun a => by
    match a with
    | ⟨0, _⟩ => rfl
    | ⟨1, _⟩ => exact Fin.ext (Nat.add_comm 20 j.val)
theorem sidx67 (r : Fin 1000000) (j : Fin 20) : idx_main_v67 (ix2 r j) = ix2 r (q2 j) :=
  funext fun a => by
    match a with
    | ⟨0, _⟩ => rfl
    | ⟨1, _⟩ => exact Fin.ext (Nat.add_comm 40 j.val)
theorem sidx68 (r : Fin 1000000) (j : Fin 20) : idx_main_v68 (ix2 r j) = ix2 r (q3 j) :=
  funext fun a => by
    match a with
    | ⟨0, _⟩ => rfl
    | ⟨1, _⟩ => exact Fin.ext (Nat.add_comm 60 j.val)

/-! ## The pre-activations -/

/-- Entry `(r, e)` of the second cell's pre-activations. -/
theorem gates2_at (A : Args) (r : Fin 1000000) (e : Fin 80) :
    val_main_v64 (F := Ideal) A.inp A.h0 A.h1 A.c0 A.Wih1 A.Whh1 A.bih1 A.bhh1 A.Wih2 A.Whh2 A.bih2 A.bhh2
      (ix2 r e) = g2 A r e := by
  rw [val_main_v64_apply, val_main_v61_apply, val_main_v58_apply, val_main_v55_apply, val_main_v57_apply,
    val_main_v56_apply, val_main_v60_apply, val_main_v63_apply, val_main_v62_apply, bidx57, bidx63]
  have hs1 : ∀ k : Fin 20, val_main_v53 (F := Ideal) A.inp A.h0 A.c0 A.Wih1 A.Whh1 A.bih1 A.bhh1
      (lidx_main_v55 (ix2 r e) k) * val_main_v54 (F := Ideal) A.Wih2 (ridx_main_v55 (ix2 r e) k) =
        h0n A r k * mat A.Wih2 e k := fun k => by
    rw [lidx55, cellH1_at, val_main_v54_apply, ridx55]
    rfl
  have hs2 : ∀ k : Fin 20, A.h1 (lidx_main_v60 (ix2 r e) k) *
      val_main_v59 (F := Ideal) A.Whh2 (ridx_main_v60 (ix2 r e) k) = row A.h1 r k * mat A.Whh2 e k := fun k => by
    rw [lidx60, val_main_v59_apply, ridx60]
    rfl
  simp only [Ideal.addf_def, hs1, hs2]
  rfl

/-! ## The new cell state and hidden state -/

/-- The second cell's new cell state at `(r, j)`. -/
theorem cellC2_at (A : Args) (r : Fin 1000000) (j : Fin 20) :
    val_main_v90 (F := Ideal) A.inp A.h0 A.h1 A.c0 A.c1 A.Wih1 A.Whh1 A.bih1 A.bhh1 A.Wih2 A.Whh2 A.bih2 A.bhh2
      (ix2 r j) = c1n A r j := by
  rw [val_main_v90_apply, val_main_v88_apply, val_main_v80_apply, val_main_v79_apply, val_main_cst_13_apply,
    val_main_v78_apply, val_main_v77_apply, val_main_cst_12_apply, val_main_v76_apply, val_main_v75_apply,
    val_main_v66_apply, val_main_v89_apply, val_main_v74_apply, val_main_v73_apply, val_main_cst_11_apply,
    val_main_v72_apply, val_main_v71_apply, val_main_cst_10_apply, val_main_v70_apply, val_main_v69_apply,
    val_main_v65_apply, val_main_v81_apply, val_main_v67_apply, sidx65, sidx66, sidx67,
    gates2_at, gates2_at, gates2_at]
  simp only [Ideal.addf_def, Ideal.mulf_def, Ideal.hostDivf_def, Ideal.hostUnary_exp_def, Ideal.hostUnary_tanh_def,
    Ideal.hostNegf_def, Ideal.negf_def, Ideal.ofBits_def]
  rw [logistic_spelled, logistic_spelled]
  rfl

/-- The second cell's new hidden state at `(r, j)`. -/
theorem cellH2_at (A : Args) (r : Fin 1000000) (j : Fin 20) :
    val_main_v92 (F := Ideal) A.inp A.h0 A.h1 A.c0 A.c1 A.Wih1 A.Whh1 A.bih1 A.bhh1 A.Wih2 A.Whh2 A.bih2 A.bhh2
      (ix2 r j) = h1n A r j := by
  rw [val_main_v92_apply, val_main_v87_apply, val_main_v86_apply, val_main_cst_15_apply, val_main_v85_apply,
    val_main_v84_apply, val_main_cst_14_apply, val_main_v83_apply, val_main_v82_apply, val_main_v68_apply,
    val_main_v91_apply, cellC2_at, sidx68, gates2_at]
  simp only [Ideal.addf_def, Ideal.mulf_def, Ideal.hostDivf_def, Ideal.hostUnary_exp_def, Ideal.hostUnary_tanh_def,
    Ideal.hostNegf_def, Ideal.negf_def, Ideal.ofBits_def]
  rw [logistic_spelled]
  rfl

/-- The second cell's new cell state, as a whole array. -/
theorem ref_cel1 (A : Args) :
    val_main_v90 (F := Ideal) A.inp A.h0 A.h1 A.c0 A.c1 A.Wih1 A.Whh1 A.bih1 A.bhh1 A.Wih2 A.Whh2 A.bih2 A.bhh2 =
      cel1 A := by
  funext i
  obtain ⟨r, j, rfl⟩ : ∃ (r : Fin 1000000) (j : Fin 20), i = ix2 r j := ⟨i 0, i 1, eq_ix2 i⟩
  exact cellC2_at A r j

/-- The second cell's new hidden state, as a whole array. -/
theorem ref_hid1 (A : Args) :
    val_main_v92 (F := Ideal) A.inp A.h0 A.h1 A.c0 A.c1 A.Wih1 A.Whh1 A.bih1 A.bhh1 A.Wih2 A.Whh2 A.bih2 A.bhh2 =
      hid1 A := by
  funext i
  obtain ⟨r, j, rfl⟩ : ∃ (r : Fin 1000000) (j : Fin 20), i = ix2 r j := ⟨i 0, i 1, eq_ix2 i⟩
  exact cellH2_at A r j

end Cert.Lstm.Ref

end
-- ==== Proof.RefOut.lean ====
/-
  The reference program's output layer, read at a row, and the output as a whole array.

  The output column is the product of the second cell's new hidden state with the transposed `[1, 20]` output
  weights, plus the one-entry output bias broadcast over the rows: entry `(r, 0)` is
  `∑ k, h1n A r k * Wout (0, k) + bout 0`, which is `outv A r`.  The output array has a single column, so every index
  of it is `(r, 0)` for its row `r`.
-/
import proofs.«152592_j76364518523026_2_alg».proof.Proof.Gen.ReferenceIdeal.Read
import proofs.«152592_j76364518523026_2_alg».proof.Proof.Spec
import proofs.«152592_j76364518523026_2_alg».proof.Proof.Literals
import proofs.«152592_j76364518523026_2_alg».proof.Proof.RefCell2

noncomputable section

open scoped BigOperators

namespace Cert.Lstm.Ref

open Cert.ReferenceIdeal Cert.ReferenceIdeal.Gen Cert.ReferenceIdeal.Read Idealize.ShloMosaic Idealize.ShloMosaic.ValueIdx

/-- Entry `(r, 0)` of the output product reads the second cell's new hidden state at `(r, k)` … -/
theorem lidx94 (r : Fin 1000000) (k : Fin 20) : lidx_main_v94 (ix2 r (0 : Fin 1)) k = ix2 r k :=
  funext fun a => by match a with | ⟨0, _⟩ => rfl | ⟨1, _⟩ => rfl
/-- … and the output weights at `(0, k)`. -/
theorem ridx94 (r : Fin 1000000) (k : Fin 20) :
    idx_main_v93 (ridx_main_v94 (ix2 r (0 : Fin 1)) k) = ix2 (0 : Fin 1) k :=
  funext fun a => by match a with | ⟨0, _⟩ => rfl | ⟨1, _⟩ => rfl
/-- The output bias broadcast over the rows is read at its one entry. -/
theorem bidx96 (r : Fin 1000000) : idx_main_v95 (idx_main_v96 (ix2 r (0 : Fin 1))) = ix1 (0 : Fin 1) :=
  funext fun a => by match a with | ⟨0, _⟩ => rfl

/-- The output entry of row `r`. -/
theorem out_at (A : Args) (r : Fin 1000000) :
    val_main_v97 (F := Ideal) A.inp A.h0 A.h1 A.c0 A.c1 A.Wih1 A.Whh1 A.bih1 A.bhh1 A.Wih2 A.Whh2 A.bih2 A.bhh2
      A.Wout A.bout (ix2 r (0 : Fin 1)) = outv A r := by
  rw [val_main_v97_apply, val_main_v94_apply, val_main_v96_apply, val_main_v95_apply, bidx96]
  have hs : ∀ k : Fin 20, val_main_v92 (F := Ideal) A.inp A.h0 A.h1 A.c0 A.c1 A.Wih1 A.Whh1 A.bih1 A.bhh1
      A.Wih2 A.Whh2 A.bih2 A.bhh2 (lidx_main_v94 (ix2 r (0 : Fin 1)) k) *
        val_main_v93 (F := Ideal) A.Wout (ridx_main_v94 (ix2 r (0 : Fin 1)) k) =
          h1n A r k * A.Wout (ix2 (0 : Fin 1) k) := fun k => by
    rw [lidx94, cellH2_at, val_main_v93_apply, ridx94]
  simp only [Ideal.addf_def, hs]
  rfl

/-- The output, as a whole array. -/
theorem ref_out (A : Args) :
    val_main_v97 (F := Ideal) A.inp A.h0 A.h1 A.c0 A.c1 A.Wih1 A.Whh1 A.bih1 A.bhh1 A.Wih2 A.Whh2 A.bih2 A.bhh2
      A.Wout A.bout = out A := by
  funext i
  have h1 : @Eq (Fin 1) (i 1) 0 := Fin.ext (Nat.lt_one_iff.mp (idx2_lt1 i))
  obtain ⟨r, rfl⟩ : ∃ r : Fin 1000000, i = ix2 r (0 : Fin 1) :=
    ⟨i 0, (eq_ix2 i).trans (congrArg (ix2 (i 0)) h1)⟩
  exact out_at A r

end Cert.Lstm.Ref

end
-- ==== Proof.RefValue.lean ====
/-
  The reference's five results are the specification's, over the argument arrays it was run from.

  The reference's run ends with each result at the composition of its operations applied to the argument arrays; read
  one operation at a time that composition is the specification's result array (the features, the two cells' states,
  the affine output, row by row).  This module only names the argument arrays of a memory as one record and chains the
  two facts.
-/
import proofs.«152592_j76364518523026_2_alg».proof.Proof.Gen.ReferenceIdeal.Read
import proofs.«152592_j76364518523026_2_alg».proof.Proof.RefOut

noncomputable section

open Idealize.ShloMosaic Idealize.ShloMosaic.TcCoe Idealize.SL.Sem

namespace Cert.Lstm.RefRun

open Cert.ReferenceIdeal Cert.ReferenceIdeal.Gen Cert.Lstm

variable (m : (ℓ : Loc nD τ sig) → Buf (Elt Ideal) ℓ) (c : Dev nD)

/-- The fifteen argument arrays as device `c` holds them in the memory `m`. -/
def args : Args where
  inp := m ((c.tc : Thread nD τ).loc main_arg0)
  h0 := m ((c.tc : Thread nD τ).loc main_arg1)
  h1 := m ((c.tc : Thread nD τ).loc main_arg2)
  c0 := m ((c.tc : Thread nD τ).loc main_arg3)
  c1 := m ((c.tc : Thread nD τ).loc main_arg4)
  Wih1 := m ((c.tc : Thread nD τ).loc main_arg5)
  Whh1 := m ((c.tc : Thread nD τ).loc main_arg6)
  bih1 := m ((c.tc : Thread nD τ).loc main_arg7)
  bhh1 := m ((c.tc : Thread nD τ).loc main_arg8)
  Wih2 := m ((c.tc : Thread nD τ).loc main_arg9)
  Whh2 := m ((c.tc : Thread nD τ).loc main_arg10)
  bih2 := m ((c.tc : Thread nD τ).loc main_arg11)
  bhh2 := m ((c.tc : Thread nD τ).loc main_arg12)
  Wout := m ((c.tc : Thread nD τ).loc main_arg13)
  bout := m ((c.tc : Thread nD τ).loc main_arg14)

theorem res_out : Cert.ReferenceIdeal.Value.res_main_v97 m c = out (args m c) :=
  (Cert.ReferenceIdeal.Read.val_main_v97_eq (F := Ideal) m c).trans (Ref.ref_out (args m c))

theorem res_hid0 : Cert.ReferenceIdeal.Value.res_main_v53 m c = hid0 (args m c) :=
  (Cert.ReferenceIdeal.Read.val_main_v53_eq (F := Ideal) m c).trans (Ref.ref_hid0 (args m c))

theorem res_hid1 : Cert.ReferenceIdeal.Value.res_main_v92 m c = hid1 (args m c) :=
  (Cert.ReferenceIdeal.Read.val_main_v92_eq (F := Ideal) m c).trans (Ref.ref_hid1 (args m c))

theorem res_cel0 : Cert.ReferenceIdeal.Value.res_main_v51 m c = cel0 (args m c) :=
  (Cert.ReferenceIdeal.Read.val_main_v51_eq (F := Ideal) m c).trans (Ref.ref_cel0 (args m c))

theorem res_cel1 : Cert.ReferenceIdeal.Value.res_main_v90 m c = cel1 (args m c) :=
  (Cert.ReferenceIdeal.Read.val_main_v90_eq (F := Ideal) m c).trans (Ref.ref_cel1 (args m c))

end Cert.Lstm.RefRun

end
-- ==== Proof.lean ====
/-
  The certificate: a two-layer LSTM cell applied to 1,000,000 independent rows, as a TPU kernel over a grid of 500
  blocks of 2000 rows, against the same computation written with whole-array operations.

  Both programs compute, for each row, the two features of the row's gradient entry (its scaled log-magnitude and its
  sign at or above a threshold; -1 and the entry scaled up below it), two LSTM cells in sequence, and an affine output
  (Proof/Spec.lean states this once, on the extended reals).  The kernel differs from the reference in four ways, none
  of which changes a value there:
  * it computes the sign by cases on the order and, below the threshold, scales the entry CLAMPED to the threshold's
    interval — the clamp is the identity exactly where that branch is taken (Proof/BodyFeatures.lean);
  * it applies the logistic function and tanh to all 80 pre-activations and then cuts out the four gate groups, where
    the reference cuts first — both are entrywise;
  * it takes the logistic function as one operation, where the reference spells 1 / (1 + exp (-x)) — the definition;
  * its weights arrive transposed and rounded to a shorter format, its biases as rows — a change of format is the
    identity on the extended reals, and the transposes and re-layings are undone index by index (Proof/Resident.lean).
  No step uses finiteness of the inputs: sums are only re-indexed, never re-associated or distributed.
  The kernel's side is assembled in Proof/KernelValue.lean (the body's arithmetic from Proof/BodyGates.lean and
  Proof/BodyBlocks.lean; blocks and their assembly into arrays from Proof/Blocks.lean, Proof/Resident.lean,
  Proof/Assemble.lean), the reference's in Proof/RefValue.lean (Proof/RefFeatures.lean, Proof/RefCell1.lean,
  Proof/RefCell2.lean, Proof/RefOut.lean).
-/
import proofs.«152592_j76364518523026_2_alg».proof.Defs
import proofs.«152592_j76364518523026_2_alg».proof.Proof.Gen.Kernel
import proofs.«152592_j76364518523026_2_alg».proof.Proof.Gen.Kernel.Frame
import proofs.«152592_j76364518523026_2_alg».proof.Proof.Gen.KernelIdeal
import proofs.«152592_j76364518523026_2_alg».proof.Proof.Gen.KernelIdeal.Frame
import proofs.«152592_j76364518523026_2_alg».proof.Proof.Gen.KernelIdeal.Value
import proofs.«152592_j76364518523026_2_alg».proof.Proof.Gen.ReferenceIdeal
import proofs.«152592_j76364518523026_2_alg».proof.Proof.Gen.ReferenceIdeal.Run
import proofs.«152592_j76364518523026_2_alg».proof.Proof.Gen.ReferenceIdeal.Read
import proofs.«152592_j76364518523026_2_alg».proof.Proof.Gen.Pre_finite_inputs
import proofs.«152592_j76364518523026_2_alg».proof.Proof.KernelValue
import proofs.«152592_j76364518523026_2_alg».proof.Proof.RefValue

noncomputable section

namespace Cert.Proof

open Idealize.ShloMosaic Idealize.ShloMosaic.TcCoe Idealize.SL.Sem

/-- The three programs run to the end without fault and leave their arguments as they found them. -/
theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2.2.2.2.2)
    (Cert.ReferenceIdeal.Value.run (F := Ideal) m ρ)

/-- The one rewrite of the idealization: "1.0 with the sign bit of x" is "-1 below zero, 1 otherwise". -/
theorem preserves : Cert.preserves_Kernel_KernelIdeal :=
  IdealRules.sign_bit.statement Cert.KernelIdeal.S2000x1 .f32

/-- From memories that agree on the arguments, both idealized programs end with the specification's five arrays of
    those arguments. -/
theorem algebraic : Cert.algebraic_KernelIdeal_ReferenceIdeal := by
  intro m ρ m' ρ' _ hagree
  have hA : ∀ c, Cert.Lstm.RefRun.args m' c = Cert.Lstm.Kernel.args m c := fun c => by
    obtain ⟨a0, a1, a2, a3, a4, a5, a6, a7, a8, a9, a10, a11, a12, a13, a14⟩ := hagree c
    unfold Cert.Lstm.RefRun.args Cert.Lstm.Kernel.args
    rw [a0, a1, a2, a3, a4, a5, a6, a7, a8, a9, a10, a11, a12, a13, a14]
  refine ⟨fun c => Cert.Lstm.out (Cert.Lstm.Kernel.args m c), fun c => Cert.Lstm.hid0 (Cert.Lstm.Kernel.args m c),
    fun c => Cert.Lstm.hid1 (Cert.Lstm.Kernel.args m c), fun c => Cert.Lstm.cel0 (Cert.Lstm.Kernel.args m c),
    fun c => Cert.Lstm.cel1 (Cert.Lstm.Kernel.args m c), ?_, ?_⟩
  · exact (θ_run Cert.KernelIdeal.defs _ _).mono
      (fun r h c => ⟨(h c).1.trans (Cert.Lstm.Kernel.final_out m c),
        (h c).2.1.trans (Cert.Lstm.Kernel.final_hid0 m c),
        (h c).2.2.1.trans (Cert.Lstm.Kernel.final_hid1 m c),
        (h c).2.2.2.1.trans (Cert.Lstm.Kernel.final_cel0 m c),
        (h c).2.2.2.2.1.trans (Cert.Lstm.Kernel.final_cel1 m c),
        (h c).2.2.2.2.2⟩)
      (Cert.KernelIdeal.Value.run_blocks m ρ)
  · exact (θ_run Cert.ReferenceIdeal.defs _ _).mono
      (fun r h c => ⟨(h c).1.trans ((Cert.Lstm.RefRun.res_out m' c).trans (congrArg Cert.Lstm.out (hA c))),
        (h c).2.1.trans ((Cert.Lstm.RefRun.res_hid0 m' c).trans (congrArg Cert.Lstm.hid0 (hA c))),
        (h c).2.2.1.trans ((Cert.Lstm.RefRun.res_hid1 m' c).trans (congrArg Cert.Lstm.hid1 (hA c))),
        (h c).2.2.2.1.trans ((Cert.Lstm.RefRun.res_cel0 m' c).trans (congrArg Cert.Lstm.cel0 (hA c))),
        (h c).2.2.2.2.1.trans ((Cert.Lstm.RefRun.res_cel1 m' c).trans (congrArg Cert.Lstm.cel1 (hA c))),
        (h c).2.2.2.2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
